-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S128x1024 : Shape := ⟨2, ![128, 1024]⟩
abbrev S128 : Shape := ⟨1, ![128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x1024 .f32) (main_arg6 : FVec F S128 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x4096x1024 .f32) (main_arg1 : FVec F S128x1024 .f32) (main_arg2 : FVec F S128 .f32) (main_arg3 : FVec F S128x1024 .f32) (main_arg4 : FVec F S128 .f32) (main_arg5 : FVec F S128x1024 .f32) (main_arg6 : FVec F S128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_v13 main_v16
-- ==== Kernel.lean ====
abbrev S4x4096x1024 : Shape := ⟨3, ![4, 4096, 1024]⟩
abbrev S128x1024 : Shape := ⟨2, ![128, 1024]⟩
abbrev S128 : Shape := ⟨1, ![128]⟩
abbrev S1024x128 : Shape := ⟨2, ![1024, 128]⟩
abbrev S1024x384 : Shape := ⟨2, ![1024, 384]⟩
abbrev S384 : Shape := ⟨1, ![384]⟩
abbrev S1x384 : Shape := ⟨2, ![1, 384]⟩
abbrev S4x4096x128 : Shape := ⟨3, ![4, 4096, 128]⟩
abbrev S1x2048x1024 : Shape := ⟨3, ![1, 2048, 1024]⟩
abbrev S1x4096x128 : Shape := ⟨3, ![1, 4096, 128]⟩
abbrev S128x128 : Shape := ⟨2, ![128, 128]⟩
abbrev S4096x128 : Shape := ⟨2, ![4096, 128]⟩
abbrev S2048x1024 : Shape := ⟨2, ![2048, 1024]⟩
abbrev S2048x384 : Shape := ⟨2, ![2048, 384]⟩
abbrev S2048x128 : Shape := ⟨2, ![2048, 128]⟩
abbrev S128x2048 : Shape := ⟨2, ![128, 2048]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x384, .f32⟩
  | .hbm, ⟨11, _⟩ => ⟨S1024x384, .bf16⟩
  | .hbm, ⟨12, _⟩ => ⟨S384, .f32⟩
  | .hbm, ⟨13, _⟩ => ⟨S1x384, .f32⟩
  | .hbm, ⟨14, _⟩ => ⟨S4x4096x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x384, .bf16⟩
  | .local _ .vmem, ⟨3, _⟩ => ⟨S1x384, .f32⟩
  | .local _ .vmem, ⟨4, _⟩ => ⟨S1x4096x128, .f32⟩
  | .local _ .vmem, ⟨5, _⟩ => ⟨S1x4096x128, .f32⟩
  | .local _ .vmem, ⟨6, _⟩ => ⟨S128x128, .f32⟩
  | .local _ .vmem, ⟨7, _⟩ => ⟨S4096x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c2048_i32 : BitVec 32 := 2048#32
  let v25 : BitVec 32 := Scalar.muli arg1 c2048_i32
  v25
def k0_off1 (i : grid0.Coords) : Fin 2 → Nat :=
  let arg1 : BitVec 32 := BitVec.ofNat 32 (i 1).val
  let c2048_i32 : BitVec 32 := 2048#32
  let v25 : BitVec 32 := Scalar.muli arg1 c2048_i32
  let v26 : BitVec 32 := v25
  let v27 : Index := Scalar.indexCast v26
  let c0_12 : Index := 0#32
  ![v27.toNat, 0]
def k0_cond2 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_13 : BitVec 32 := 0#32
  let v33 : BitVec 1 := Scalar.cmpi .ne v32 c0_i32_13
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S128x1024_S1024x128_1_0 : S128x1024.Transposes [1, 0] S1024x128
  concatenates_S1024x128_S1024x128_S1024x128_S1024x384_d1 : Shape.Concatenates [S1024x128, S1024x128, S1024x128] S1024x384 1
  bitsLt_bf16_f32 : FTy.bits .bf16 < FTy.bits .f32
  concatenates_S128_S128_S128_S384_d0 : Shape.Concatenates [S128, S128, S128] S384 0
  shapeCasts_S384_S1x384 : S384.ShapeCasts S1x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  transposes_S2048x128_p1_0_S128x2048 : S2048x128.Transposes [1, 0] S128x2048
  h_S2048x128 : 0 < S2048x128.numel
  shapeCasts_S2048x128_S2048x128 : S2048x128.ShapeCasts S2048x128
  inb_S4096x128_S4096x128_0_0 : ∀ a, (![0, 0] : Fin 2 → Nat) a + S4096x128.size a ≤ S4096x128.size a
  h_S4096x128 : 0 < S4096x128.numel
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  dot_S2048x1024_S1024x384_S2048x384_1_0_0_1_n_n_wf : DotDims.WF S2048x1024 S1024x384 S2048x384 [1] [0] [0] [1] [] []
  dot_S128x2048_S2048x128_S128x128_1_0_0_1_n_n_wf : DotDims.WF S128x2048 S2048x128 S128x128 [1] [0] [0] [1] [] []
  dot_S4096x128_S128x128_S4096x128_1_0_0_1_n_n_wf : DotDims.WF S4096x128 S128x128 S4096x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .f32 = 32 ∨ (Rect.block (s := S4x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .bf16 = 32 ∨ (Rect.block (s := S1024x384) S1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S4x4096x128.size a
  hwx0_3 : ∀ i : grid0.Coords, EltTy.bits .f32 = 32 ∨ (Rect.block (s := S4x4096x128) S1x4096x128.size (cc0_transform_3 i) (hinb0_3 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S128x1024 : Shape := ⟨2, ![128, 1024]⟩
abbrev S128 : Shape := ⟨1, ![128]⟩
abbrev S4x4096x128 : Shape := ⟨3, ![4, 4096, 128]⟩
abbrev S1x1x128 : Shape := ⟨3, ![1, 1, 128]⟩
abbrev S4x4096x4096 : Shape := ⟨3, ![4, 4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S4x4096x128, .f32⟩
  | .hbm, ⟨8, _⟩ => ⟨S1x1x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S1x1x128, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S1x1x128, .f32⟩
  | .hbm, ⟨17, _⟩ => ⟨S4x4096x128, .f32⟩
  | .hbm, ⟨18, _⟩ => ⟨S4x4096x128, .f32⟩
  | .hbm, ⟨19, _⟩ => ⟨S4x4096x4096, .f32⟩
  | .hbm, ⟨20, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  dot_S4x4096x1024_S128x1024_S4x4096x128_2_1_01_0_n_n_wf : DotDims.WF S4x4096x1024 S128x1024 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S128x1024_S4x4096x128_2_1_01_0_n_n : DotDims S4x4096x1024 S128x1024 S4x4096x128 where
  lhsContracting := [2]
  rhsContracting := [1]
  lhsNonContracting := [0, 1]
  rhsNonContracting := [0]
  lhsBatch := []
  rhsBatch := []
  wf := dot_S4x4096x1024_S128x1024_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.FrameB.Entry.lean ====
/-
  The program up to and around its one kernel launch, for the hand-written frame of this program.

  The host lines before the launch (three transposes, the concatenation of the three transposed weight
  matrices side by side and its rounding, the concatenation of the three bias vectors and its reshape to
  one row) write only their own result buffers, so the launch finds every argument array as it was; the
  contents of every buffer at the launch are the fold of those lines over the initial memory.  A window's
  block at a grid point is its array read through the block's rectangle.  The grid is 4 × 2: point t is
  batch t / 2 and half t % 2 of the 4096 rows.  The body zeroes its 128 × 128 accumulator exactly at the
  even points and computes the output block exactly at the odd points; its row offset into the 4096-row
  scratch is 0 at the even points and 2048 at the odd ones.
-/
import proofs.«172972_j40510131536516_2_alg».proof.Proof.Gen.Kernel.Launch
import proofs.«172972_j40510131536516_2_alg».proof.Proof.Gen.Kernel.Skeleton
import proofs.«172972_j40510131536516_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The contents of core c's buffers when the launch is reached: the host lines folded over the initial memory. -/
abbrev V (c : Dev nD) (b : Ref sig .tc) : Buf (Elt F) ((c : Thread nD τ).loc b) := StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The program is its host lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began -/

/-- From a run whose post names every array of the launch and leaves every other buffer as the launch found
    it, the seven argument arrays end unchanged: the input is a fetched window's array, the six others are
    staged by no window, and no host line writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's two conditions and its row offset, over the grid -/

/-- The first condition of the body: "this is the first half" (the second grid coordinate is 0). -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second condition of the body: "this is the last half" (the second grid coordinate is 1). -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The row offset into the 4096-row scratch is 0 at the even points -/
theorem hoff_even : ∀ t : Fin cfg0.N, t.val % 2 = 0 → k0_off1 (grid0.coords t) = ![0, 0] :=
  (by decide +kernel : ∀ t : Fin grid0.N, t.val % 2 = 0 → k0_off1 (grid0.coords t) = ![0, 0])
/-- and 2048 at the odd points. -/
theorem hoff_odd : ∀ t : Fin cfg0.N, t.val % 2 = 1 → k0_off1 (grid0.coords t) = ![2048, 0] :=
  (by decide +kernel : ∀ t : Fin grid0.N, t.val % 2 = 1 → k0_off1 (grid0.coords t) = ![2048, 0])

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second condition fails the body stores nothing into the output's buffer, -/
theorem idleAt0_3 : ∀ t : Fin cfg0.N, ¬cond0_1 (grid0.coords t) → cfg0.idle 3 (grid0.coords t) = true := by decide +kernel
/-- and the block is not written back there. -/
theorem noFlush0_3 : ∀ t : Fin cfg0.N, ¬cond0_1 (grid0.coords t) → (cfg0.win 3).flush t = false := by decide +kernel
/-- Where it holds the output's buffer is stored into. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x4096x128 .f32 := (Memref.whole cc0_stg3_0 : Memref sig .tc .vmem S1x4096x128 .f32).view
/-- Each window's current staging memref at point t, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .f32 := win0_3.stage (cfg0.slots t 3)
abbrev hs0_3 (t : Fin cfg0.N) : (ms0_3 t).IsWhole := hstage0_3 ((cfg0.slots t 3).cast nbuf0_3)
/-- The two scratch operands: the 128 × 128 accumulator and the 4096 × 128 copy of Q. -/
abbrev scM0_0 : Memref sig .tc .vmem S128x128 .f32 := Memref.whole cc0_scratch0
abbrev scM0_1 : Memref sig .tc .vmem S4096x128 .f32 := Memref.whole cc0_scratch1

/-- What the launch hands the body beside the windows: the two scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.FrameB.RunA.lean ====
/-
  The kernel body at an even grid point (the first half of a batch's rows), run once on arbitrary whole
  memrefs.  There the body zeroes the 128 × 128 accumulator, projects the block of 2048 rows to Q | K | V,
  adds Kᵀ V of the block to the accumulator, stores the block's Q into rows 0 … 2047 of the 4096-row
  scratch, and leaves the output's buffer untouched.  The run finds what the two scratch buffers end with
  as lists of written pieces.
-/
import proofs.«172972_j40510131536516_2_alg».proof.Proof.FrameB.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first half's rows of the 4096-row scratch: offset (0, 0), extent 2048 × 128. -/
theorem inb_lo : ∀ a, (![0, 0] : Fin 2 → Nat) a + S2048x128.size a ≤ S4096x128.size a := by decide

set_option maxHeartbeats 1000000 in
/-- At a point where the first condition holds and the second fails, with row offset 0: on whole memrefs —
    the three inputs at x0, x1, x2, the output's buffer at any contents xi3, the two scratch buffers at
    anything — the body runs to the continuation holding the inputs and the output's buffer as they were
    and each scratch buffer with its pieces written. -/
noncomputable def kernelRun0_A (c : Dev nD) (i : grid0.Coords) (arg2 : Memref sig .tc .vmem S1x2048x1024 .f32) (harg2 : arg2.IsWhole) (arg3 : Memref sig .tc .vmem S1024x384 .bf16) (harg3 : arg3.IsWhole) (arg4 : Memref sig .tc .vmem S1x384 .f32) (harg4 : arg4.IsWhole) (arg5 : Memref sig .tc .vmem S1x4096x128 .f32) (harg5 : arg5.IsWhole) (arg6 : Memref sig .tc .vmem S128x128 .f32) (harg6 : arg6.IsWhole) (arg7 : Memref sig .tc .vmem S4096x128 .f32) (harg7 : arg7.IsWhole) (hc0 : cond0_0 i) (hc1 : ¬cond0_1 i) (hoff : k0_off1 i = ![0, 0])
    (x0 : Vec F S1x2048x1024 .f32) (x1 : Vec F S1024x384 .bf16) (x2 : Vec F S1x384 .f32) :
    Σ' (LS0 : List (View.Piece (Elt F) S128x128 .f32)), { LS1 : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun xi3 E K => ?run⟩
  case run =>
    simp only [cc0__fused_kernel_eq_skeleton]; unfold cc0__fused_kernel_skel
    simp only [hoff]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.FrameB.Outs.lean ====
/-
  What the body leaves behind, named through its payloads of the points' input blocks.

  Point t is batch t / 2, half t % 2.  With x, w, b the three input blocks of a point:
  the even point of a batch leaves the accumulator at accA = (Kᵀ V of its block) added to zero, and its
  2048 × 128 block of Q (qAt) in rows 0 … 2047 of the 4096-row scratch; the odd point, coming right after,
  leaves the accumulator at accB = accA of the point before plus Kᵀ V of its own block, the scratch at qFull
  — the first half's Q in rows 0 … 2047 and its own in rows 2048 … 4095 — and in the output's buffer
  outB = qFull · accB.
-/
import proofs.«172972_j40510131536516_2_alg».proof.Proof.FrameB.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first half's rows of the 4096-row scratch: offset (0, 0), extent 2048 × 128; -/
theorem inb_lo' : ∀ a, (![0, 0] : Fin 2 → Nat) a + S2048x128.size a ≤ S4096x128.size a := by decide
/-- the second half's: offset (2048, 0). -/
theorem inb_hi : ∀ a, (![2048, 0] : Fin 2 → Nat) a + S2048x128.size a ≤ S4096x128.size a := by decide

/-- A 2048 × 128 block stored at rows 0 … 2047 of the 4096-row scratch, as a written piece; -/
abbrev pieceLo (q : Vec F S2048x128 .f32) : View.Piece (Elt F) S4096x128 .f32 :=
  ⟨Rect.unit (s := S4096x128) ![0, 0] S2048x128.size inb_lo', q⟩
/-- and one stored at rows 2048 … 4095. -/
abbrev pieceHi (q : Vec F S2048x128 .f32) : View.Piece (Elt F) S4096x128 .f32 :=
  ⟨Rect.unit (s := S4096x128) ![2048, 0] S2048x128.size inb_hi, q⟩

/-- The point before t (for an odd point: the first half of the same batch). -/
def prev (t : Fin cfg0.N) : Fin cfg0.N := ⟨t.val - 1, lt_of_le_of_lt (Nat.sub_le _ _) t.isLt⟩

/-- The accumulator after an even point: Kᵀ V of the point's block added to the zeroed accumulator. -/
def accA (c : Dev nD) (t : Fin cfg0.N) : Vec F S128x128 .f32 :=
  k0_pay3 (iblk m c 0 t) (iblk m c 1 t) (iblk m c 2 t) (k0_pay1 (F := F))

/-- The point's 2048 × 128 block of Q. -/
def qAt (c : Dev nD) (t : Fin cfg0.N) : Vec F S2048x128 .f32 :=
  k0_pay4 (iblk m c 0 t) (iblk m c 1 t) (iblk m c 2 t)

/-- The accumulator after an odd point: the point before's, plus Kᵀ V of this point's block. -/
def accB (c : Dev nD) (t : Fin cfg0.N) : Vec F S128x128 .f32 :=
  k0_pay3 (iblk m c 0 t) (iblk m c 1 t) (iblk m c 2 t) (accA m c (prev t))

/-- The 4096-row scratch after an odd point: the point before's Q in rows 0 … 2047, this point's in rows 2048 … 4095. -/
def qFull (c : Dev nD) (t : Fin cfg0.N) : Vec F S4096x128 .f32 :=
  View.canon [pieceHi (qAt m c t), pieceLo (qAt m c (prev t))]

/-- The output's buffer after an odd point: Q · (Kᵀ V) for all 4096 rows of the batch. -/
def outB (c : Dev nD) (t : Fin cfg0.N) : Vec F S1x4096x128 .f32 :=
  k0_pay5 (qFull m c t) (accB m c t)

end Cert.Kernel.Hand

end
-- ==== Proof.FrameB.RunB.lean ====
/-
  The kernel body at an odd grid point (the second half of a batch's rows), run once on arbitrary whole
  memrefs.  There the body projects the block of 2048 rows to Q | K | V, adds Kᵀ V of the block to the
  accumulator the first half left, stores the block's Q into rows 2048 … 4095 of the 4096-row scratch,
  loads all 4096 rows of it and the accumulator, and writes their product into the output's buffer.  The
  run is stated for the scratch at any contents; it finds what the output's buffer and the two scratch
  buffers end with as lists of written pieces.
-/
import proofs.«172972_j40510131536516_2_alg».proof.Proof.FrameB.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the first condition fails and the second holds: on whole memrefs — the three inputs at
    x0, x1, x2, the output's buffer at anything, the accumulator at xs0, the 4096-row scratch at xs1 — the
    body runs to the continuation holding the inputs as they were and the output's buffer and each scratch
    buffer with its pieces written. -/
noncomputable def kernelRun0_B (c : Dev nD) (i : grid0.Coords) (arg2 : Memref sig .tc .vmem S1x2048x1024 .f32) (harg2 : arg2.IsWhole) (arg3 : Memref sig .tc .vmem S1024x384 .bf16) (harg3 : arg3.IsWhole) (arg4 : Memref sig .tc .vmem S1x384 .f32) (harg4 : arg4.IsWhole) (arg5 : Memref sig .tc .vmem S1x4096x128 .f32) (harg5 : arg5.IsWhole) (arg6 : Memref sig .tc .vmem S128x128 .f32) (harg6 : arg6.IsWhole) (arg7 : Memref sig .tc .vmem S4096x128 .f32) (harg7 : arg7.IsWhole) (hc0 : ¬cond0_0 i) (hc1 : cond0_1 i)
    (x0 : Vec F S1x2048x1024 .f32) (x1 : Vec F S1024x384 .bf16) (x2 : Vec F S1x384 .f32) (xs0 : Vec F S128x128 .f32) (xs1 : Vec F S4096x128 .f32) :
    Σ' (L3 : List (View.Piece (Elt F) S1x4096x128 .f32)) (LS0 : List (View.Piece (Elt F) S128x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    clear hf0 hf1 hf2 hfs0 hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.FrameB.Frame.lean ====
/-
  The frame of this program, by hand: the proof data of its one launch, the body's obligation at every grid
  point, the run, and the frame claim.

  The grid is 4 × 2; point t is batch t / 2, half t % 2.  At an even point the body zeroes the 128 × 128
  accumulator, adds the block's Kᵀ V to it, and stores the block's Q into rows 0 … 2047 of the 4096-row
  scratch; the output's buffer is idle and not written back.  At the following odd point it adds the second
  block's Kᵀ V, stores the second block's Q into rows 2048 … 4095, and writes Q · (Kᵀ V) for all 4096 rows
  into the output's buffer, which is then written back.  So between the two points of a batch the invariant
  carries the accumulator at its first-half value and the scratch with its first-half piece written over
  whatever it held; before an even point (and after the last point) the scratch buffers hold anything.
  The two halves' pieces tile the 4096 rows, so what the odd point loads from the scratch — and hence what
  it leaves in the output's buffer — does not depend on what lay under them.
-/
import proofs.«172972_j40510131536516_2_alg».proof.Proof.FrameB.RunA
import proofs.«172972_j40510131536516_2_alg».proof.Proof.FrameB.RunB
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the runs' pieces back -/

/-- A load of a whole buffer holding X reads X. -/
theorem readAt_whole {S : Shape} {e : EltTy} (mr : Memref sig .tc .vmem S e) (h : mr.IsWhole) {off : Fin S.rank → Nat}
    (hz : off = fun _ => 0) (inb : ∀ a, off a + S.size a ≤ S.size a) (X : S.Idx → Elt F e) :
    View.readAt (Elt F) mr.view (Rect.unit off S.size inb).toLoadRect (h.unread X) = X := by
  rw [View.readAt_eq_ld, h.read_unread, View.ld_unit_zero hz]

theorem hz2 : (![0, 0] : Fin 2 → Nat) = fun _ => 0 := by funext a; fin_cases a <;> rfl
theorem hz3 : (![0, 0, 0] : Fin 3 → Nat) = fun _ => 0 := by funext a; fin_cases a <;> rfl

/-- A piece of 2048 rows at a row offset known to be 0 is the first half's piece; -/
theorem piece_lo_of {off : Fin 2 → Nat} (h : off = ![0, 0]) (inb : ∀ a, off a + S2048x128.size a ≤ S4096x128.size a)
    (w : Vec F S2048x128 .f32) :
    (⟨Rect.unit (s := S4096x128) off S2048x128.size inb, w⟩ : View.Piece (Elt F) S4096x128 .f32) = pieceLo w := by
  subst h; rfl
/-- at a row offset known to be 2048, the second half's. -/
theorem piece_hi_of {off : Fin 2 → Nat} (h : off = ![2048, 0]) (inb : ∀ a, off a + S2048x128.size a ≤ S4096x128.size a)
    (w : Vec F S2048x128 .f32) :
    (⟨Rect.unit (s := S4096x128) off S2048x128.size inb, w⟩ : View.Piece (Elt F) S4096x128 .f32) = pieceHi w := by
  subst h; rfl

/-- The two halves' pieces tile the 4096 rows. -/
theorem cover_halves (qB qA : Vec F S2048x128 .f32) (y : S4096x128.Idx) :
    ∃ p ∈ [pieceHi qB, pieceLo qA], y ∈ p.1.set :=
  View.cover_of_tiledL [pieceHi qB, pieceLo qA] S2048x128.size (by sl_kernel_rfl) y

theorem inb_acc : ∀ a, (![0, 0] : Fin 2 → Nat) a + S128x128.size a ≤ S128x128.size a := by decide
theorem inb_out : ∀ a, (![0, 0, 0] : Fin 3 → Nat) a + S1x4096x128.size a ≤ S1x4096x128.size a := by decide

section Pieces
variable (c : Dev nD) (i : grid0.Coords) (arg2 : Memref sig .tc .vmem S1x2048x1024 .f32) (harg2 : arg2.IsWhole) (arg3 : Memref sig .tc .vmem S1024x384 .bf16) (harg3 : arg3.IsWhole) (arg4 : Memref sig .tc .vmem S1x384 .f32) (harg4 : arg4.IsWhole) (arg5 : Memref sig .tc .vmem S1x4096x128 .f32) (harg5 : arg5.IsWhole) (arg6 : Memref sig .tc .vmem S128x128 .f32) (harg6 : arg6.IsWhole) (arg7 : Memref sig .tc .vmem S4096x128 .f32) (harg7 : arg7.IsWhole)
  (x0 : Vec F S1x2048x1024 .f32) (x1 : Vec F S1024x384 .bf16) (x2 : Vec F S1x384 .f32)

/-- What the even point leaves in the 4096-row scratch: its block of Q, at rows 0 … 2047. -/
theorem runA_LS1 (hc0 : cond0_0 i) (hc1 : ¬cond0_1 i) (hoff : k0_off1 i = ![0, 0]) :
    (kernelRun0_A c i arg2 harg2 arg3 harg3 arg4 harg4 arg5 harg5 arg6 harg6 arg7 harg7 hc0 hc1 hoff x0 x1 x2).2.1 = [pieceLo (k0_pay4 x0 x1 x2)] := by
  unfold kernelRun0_A; dsimp only
  rw [readAt_whole arg2 harg2 hz3, readAt_whole arg3 harg3 hz2, readAt_whole arg4 harg4 hz2]
  exact congrArg (fun p => [p]) (piece_lo_of hoff _ _)

/-- What the even point leaves in the accumulator, read back through any view: the block's Kᵀ V added to zero. -/
theorem runA_acc (hc0 : cond0_0 i) (hc1 : ¬cond0_1 i) (hoff : k0_off1 i = ![0, 0])
    (v : View sig .tc .vmem S128x128 .f32) (f : v.ty.Contents (Elt F)) :
    v.read (Elt F) (v.writes (Elt F) f (kernelRun0_A c i arg2 harg2 arg3 harg3 arg4 harg4 arg5 harg5 arg6 harg6 arg7 harg7 hc0 hc1 hoff x0 x1 x2).1)
      = k0_pay3 x0 x1 x2 (k0_pay1 (F := F)) := by
  have e : (kernelRun0_A c i arg2 harg2 arg3 harg3 arg4 harg4 arg5 harg5 arg6 harg6 arg7 harg7 hc0 hc1 hoff x0 x1 x2).1
      = [(⟨Rect.unit (s := S128x128) ![0, 0] S128x128.size inb_acc, k0_pay3 x0 x1 x2 (k0_pay1 (F := F))⟩ : View.Piece (Elt F) S128x128 .f32),
         ⟨Rect.unit (s := S128x128) ![0, 0] S128x128.size inb_acc, k0_pay1 (F := F)⟩] := by
    unfold kernelRun0_A; dsimp only; sl_unfold_run_names
    rw [readAt_whole arg2 harg2 hz3, readAt_whole arg3 harg3 hz2, readAt_whole arg4 harg4 hz2, View.readCov_unit_zero _ hz2]
  rw [e, View.read_writes_eq_canon _ _ _ (fun y => ⟨_, List.mem_cons_self, View.mem_set_unit_zero hz2 inb_acc y⟩),
    View.canon_cons_unit_zero hz2]

/-- What the odd point leaves in the output's buffer, read back through any view, when the scratch held the
    first half's piece over anything: the product of the two halves' Q with the accumulated Kᵀ V. -/
theorem runB_out (hc0 : ¬cond0_0 i) (hc1 : cond0_1 i) (hoff : k0_off1 i = ![2048, 0]) (xs0 : Vec F S128x128 .f32)
    (qA : Vec F S2048x128 .f32) (g : arg7.view.ty.Contents (Elt F))
    (v : View sig .tc .vmem S1x4096x128 .f32) (f : v.ty.Contents (Elt F)) :
    v.read (Elt F) (v.writes (Elt F) f (kernelRun0_B c i arg2 harg2 arg3 harg3 arg4 harg4 arg5 harg5 arg6 harg6 arg7 harg7 hc0 hc1 x0 x1 x2 xs0
        (arg7.view.read (Elt F) (arg7.view.writes (Elt F) g [pieceLo qA]))).1)
      = k0_pay5 (View.canon [pieceHi (k0_pay4 x0 x1 x2), pieceLo qA]) (k0_pay3 x0 x1 x2 xs0) := by
  have e : (kernelRun0_B c i arg2 harg2 arg3 harg3 arg4 harg4 arg5 harg5 arg6 harg6 arg7 harg7 hc0 hc1 x0 x1 x2 xs0
        (arg7.view.read (Elt F) (arg7.view.writes (Elt F) g [pieceLo qA]))).1
      = [(⟨Rect.unit (s := S1x4096x128) ![0, 0, 0] S1x4096x128.size inb_out,
          k0_pay5 (View.canon [pieceHi (k0_pay4 x0 x1 x2), pieceLo qA]) (k0_pay3 x0 x1 x2 xs0)⟩ : View.Piece (Elt F) S1x4096x128 .f32)] := by
    unfold kernelRun0_B; dsimp only; sl_unfold_run_names
    rw [readAt_whole arg2 harg2 hz3, readAt_whole arg3 harg3 hz2, readAt_whole arg4 harg4 hz2, readAt_whole arg6 harg6 hz2,
      View.readCov_unit_zero _ hz2, harg7.unread_read, piece_hi_of hoff, ← View.writes_append _ _ [pieceHi (k0_pay4 x0 x1 x2)] [pieceLo qA],
      List.cons_append, List.nil_append,
      View.readAt_eq_ld, View.read_writes_eq_canon _ _ _ (cover_halves _ _), View.ld_unit_zero hz2]
  rw [e, View.read_writes_eq_canon _ _ _ (fun y => ⟨_, List.mem_singleton_self _, View.mem_set_unit_zero hz3 inb_out y⟩),
    View.canon_unit_zero hz3]

end Pieces

/-! ## The two cases of the body, with what they leave named -/

section Triples
variable (c : Dev nD) (i : grid0.Coords) (arg2 : Memref sig .tc .vmem S1x2048x1024 .f32) (harg2 : arg2.IsWhole) (arg3 : Memref sig .tc .vmem S1024x384 .bf16) (harg3 : arg3.IsWhole) (arg4 : Memref sig .tc .vmem S1x384 .f32) (harg4 : arg4.IsWhole) (arg5 : Memref sig .tc .vmem S1x4096x128 .f32) (harg5 : arg5.IsWhole) (arg6 : Memref sig .tc .vmem S128x128 .f32) (harg6 : arg6.IsWhole) (arg7 : Memref sig .tc .vmem S4096x128 .f32) (harg7 : arg7.IsWhole)
  (x0 : Vec F S1x2048x1024 .f32) (x1 : Vec F S1024x384 .bf16) (x2 : Vec F S1x384 .f32)

/-- The body at an even point: the inputs and the output's buffer come back as they were, the accumulator holds
    the block's Kᵀ V added to zero, and the 4096-row scratch holds the block's Q in rows 0 … 2047 over whatever
    it held. -/
theorem run_even (hc0 : cond0_0 i) (hc1 : ¬cond0_1 i) (hoff : k0_off1 i = ![0, 0])
    (xi3 : Vec F S1x4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k0_pay3 x0 x1 x2 (k0_pay1 (F := F)))
            ∗ (∃ f, arg7.view.loc (c : Thread nD τ) ↦[arg7.view.set]{fullShare} arg7.view.writes (Elt F) f [pieceLo (k0_pay4 x0 x1 x2)])) -∗ K ⟨⟩))
      ⊢ wp frame (wpE (defs₀ (F := F)) Variants.none c none) E (cc0__fused_kernel i arg2 harg2 arg3 harg3 arg4 harg4 arg5 harg5 arg6 harg6 arg7 harg7) K := by
  iintro ⟨H0, H1, H2, H3, HS0, HS1, Hk⟩
  iapply ((kernelRun0_A c i arg2 harg2 arg3 harg3 arg4 harg4 arg5 harg5 arg6 harg6 arg7 harg7 hc0 hc1 hoff x0 x1 x2).2.2 xi3 E K)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f6, HS0⟩, HS1⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact runA_acc c i arg2 harg2 arg3 harg3 arg4 harg4 arg5 harg5 arg6 harg6 arg7 harg7 x0 x1 x2 hc0 hc1 hoff _ _
  rw [← runA_LS1 c i arg2 harg2 arg3 harg3 arg4 harg4 arg5 harg5 arg6 harg6 arg7 harg7 x0 x1 x2 hc0 hc1 hoff]
  iexact HS1

/-- The body at an odd point, the accumulator at xs0 and the 4096-row scratch holding a block qA in rows
    0 … 2047 over anything: the inputs come back as they were, the output's buffer holds the product of the
    scratch — qA above this block's Q — with this block's Kᵀ V added to xs0; the scratch buffers hold something. -/
theorem run_odd (hc0 : ¬cond0_0 i) (hc1 : cond0_1 i) (hoff : k0_off1 i = ![2048, 0])
    (xs0 : Vec F S128x128 .f32) (qA : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare xs0
        ∗ (∃ f, arg7.view.loc (c : Thread nD τ) ↦[arg7.view.set]{fullShare} arg7.view.writes (Elt F) f [pieceLo qA])
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 (View.canon [pieceHi (k0_pay4 x0 x1 x2), pieceLo qA]) (k0_pay3 x0 x1 x2 xs0))
            ∗ (∃ d, owns (c : Thread nD τ) arg6 fullShare d) ∗ (∃ d, owns (c : Thread nD τ) arg7 fullShare d)) -∗ K ⟨⟩))
      ⊢ wp frame (wpE (defs₀ (F := F)) Variants.none c none) E (cc0__fused_kernel i arg2 harg2 arg3 harg3 arg4 harg4 arg5 harg5 arg6 harg6 arg7 harg7) K := by
  iintro ⟨H0, H1, H2, H3, HS0, ⟨%g, HS1⟩, Hk⟩
  iapply ((kernelRun0_B c i arg2 harg2 arg3 harg3 arg4 harg4 arg5 harg5 arg6 harg6 arg7 harg7 hc0 hc1 x0 x1 x2 xs0 (arg7.view.read (Elt F) (arg7.view.writes (Elt F) g [pieceLo qA]))).2.2.2 E K)
  isplitl [H0]; · iexact H0
  isplitl [H1]; · iexact H1
  isplitl [H2]; · iexact H2
  isplitl [H3]; · iexact H3
  isplitl [HS0]; · iexact HS0
  isplitl [HS1]
  · unfold owns; iexists _; isplitr
    swap; · iexact HS1
    ipureintro; rfl
  iintro ⟨H0, H1, H2, ⟨%f5, H3⟩, ⟨%f6, HS0⟩, ⟨%f7, HS1⟩⟩
  iapply Hk
  isplitl [H0]; · iexact H0
  isplitl [H1]; · iexact H1
  isplitl [H2]; · iexact H2
  isplitl [H3]
  · unfold owns; iexists _; isplitr
    swap; · iexact H3
    ipureintro; exact runB_out c i arg2 harg2 arg3 harg3 arg4 harg4 arg5 harg5 arg6 harg6 arg7 harg7 x0 x1 x2 hc0 hc1 hoff xs0 qA g _ _
  isplitl [HS0]
  · iexists _; unfold owns; iexists _; isplitr
    swap; · iexact HS0
    ipureintro; rfl
  iexists _; unfold owns; iexists _; isplitr
  swap; · iexact HS1
  ipureintro; rfl

end Triples

/-! ## The invariant between points -/

theorem hc0_even (t : Fin cfg0.N) (he : t.val % 2 = 0) : cond0_0 (grid0.coords t) := (hcond0_0 t).mpr he
theorem hc1_even (t : Fin cfg0.N) (he : t.val % 2 = 0) : ¬cond0_1 (grid0.coords t) := fun h => by
  have := (hcond0_1 t).mp h; omega
theorem hc0_odd (t : Fin cfg0.N) (ho : t.val % 2 = 1) : ¬cond0_0 (grid0.coords t) := fun h => by
  have := (hcond0_0 t).mp h; omega
theorem hc1_odd (t : Fin cfg0.N) (ho : t.val % 2 = 1) : cond0_1 (grid0.coords t) := (hcond0_1 t).mpr ho

/-- The invariant before position n: after an even point (n odd) the accumulator at that point's value and the
    4096-row scratch with that point's block of Q written in rows 0 … 2047; otherwise the two scratch buffers at
    anything.  The generator register at some state throughout. -/
def PhiS (c : Dev nD) (n : ℕ) (hn : n ≤ cfg0.N) : sProp 𝕄 :=
  if ho : n % 2 = 1 then
    iprop(iprop(owns (c : Thread nD τ) scM0_0 fullShare (accA m c ⟨n - 1, by omega⟩)
        ∗ (∃ f, scM0_1.view.loc (c : Thread nD τ) ↦[scM0_1.view.set]{fullShare} scM0_1.view.writes (Elt F) f [pieceLo (qAt m c ⟨n - 1, by omega⟩)]))
      ∗ (∃ r, prngReg c r))
  else Pipeline.ΦA spec0 c

theorem PhiS_even (c : Dev nD) (n : ℕ) (hn : n ≤ cfg0.N) (he : n % 2 = 0) : PhiS m c n hn = Pipeline.ΦA spec0 c :=
  dif_neg (by omega)

/-- After an even point t. -/
theorem PhiS_after_even (c : Dev nD) (t : Fin cfg0.N) (he : t.val % 2 = 0) :
    PhiS m c (t.val + 1) t.isLt
      = iprop(iprop(owns (c : Thread nD τ) scM0_0 fullShare (accA m c t)
          ∗ (∃ f, scM0_1.view.loc (c : Thread nD τ) ↦[scM0_1.view.set]{fullShare} scM0_1.view.writes (Elt F) f [pieceLo (qAt m c t)]))
        ∗ (∃ r, prngReg c r)) := by
  unfold PhiS; rw [dif_pos (by omega)]; rfl

/-- Before an odd point t: what the point before left. -/
theorem PhiS_before_odd (c : Dev nD) (t : Fin cfg0.N) (ho : t.val % 2 = 1) :
    PhiS m c t.val (Nat.le_of_lt t.isLt)
      = iprop(iprop(owns (c : Thread nD τ) scM0_0 fullShare (accA m c (prev t))
          ∗ (∃ f, scM0_1.view.loc (c : Thread nD τ) ↦[scM0_1.view.set]{fullShare} scM0_1.view.writes (Elt F) f [pieceLo (qAt m c (prev t))]))
        ∗ (∃ r, prngReg c r)) := by
  unfold PhiS; rw [dif_pos ho]; rfl

/-! ## The proof data of the launch -/

/-- On core c: the arrays as the launch finds them; after the body at point t each input's buffer at its block and
    the output's at Q · (Kᵀ V) of the batch (consulted at the odd points only: at the even ones the window is idle
    and not written back); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: by the point's parity one of the two cases applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, Phi_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases he : t.val % 2 = 0
  · rw [PhiS_even m c _ _ he, PhiS_after_even m c t he, PhiA0_eq]
    rw [Dat.leavesExact_idle (dats m 0 c) 3 t (idleAt0_3 t (hc1_even t he)) (noFlush0_3 t (hc1_even t he))]
    unfold accA qAt
    iintro ⟨⟨⟨HS0, HS1⟩, Hg⟩, Ho, ⟨%d0, H0⟩, ⟨%d1, H1⟩, ⟨%d2, H2⟩, ⟨%d3, H3⟩⟩
    iapply (run_even c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (iblk m c 0 t) (iblk m c 1 t) (iblk m c 2 t) (hc0_even t he) (hc1_even t he) (hoff_even t he) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexists _; iexact H3
  · have ho : t.val % 2 = 1 := by omega
    rw [PhiS_before_odd m c t ho, PhiS_even m c (t.val + 1) _ (by omega), PhiA0_eq]
    rw [show (dats m 0 c).leavesExact 3 t = owns (c : Thread nD τ) (ms0_3 t) fullShare ((dats m 0 c).after 3 t) from by
      unfold Dat.leavesExact; rw [liveAt0_3 t (hc1_odd t ho)], after0_3]
    unfold outB accB qFull accA qAt
    iintro ⟨⟨⟨HS0, HS1⟩, Hg⟩, Ho, ⟨%d0, H0⟩, ⟨%d1, H1⟩, ⟨%d2, H2⟩, ⟨%d3, H3⟩⟩
    iapply (run_odd c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (iblk m c 0 t) (iblk m c 1 t) (iblk m c 2 t) (hc0_odd t ho) (hc1_odd t ho) (hoff_odd t ho) _ _ Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the body is the invariant before the first point, -/
theorem hin (c : Dev nD) : Pipeline.ΦA spec0 c ⊢ (dats m 0 c).Φ 0 := by
  rw [show (dats m 0 c).Φ 0 = PhiS m c 0 (Nat.zero_le _) from rfl, PhiS_even m c 0 _ rfl]

/-- and after the last point the invariant is that again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_even m c _ _ (by rw [Fin.val_last]; have : cfg0.N = 8 := N_0; omega)]

/-! ## The run and the frame -/

set_option backward.isDefEq.respectTransparency.types false in
/-- Every weakly fair execution of the program on the core terminates, and every final state has every array of
    the launch at what the library computes from the proof data and every other unscoped buffer as the launch
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end without a fault and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.FrameI.Entry.lean ====
/-
  The program up to and around its one kernel launch, for the hand-written frame of this program.

  The host lines before the launch (three transposes, the concatenation of the three transposed weight
  matrices side by side and its rounding, the concatenation of the three bias vectors and its reshape to
  one row) write only their own result buffers, so the launch finds every argument array as it was; the
  contents of every buffer at the launch are the fold of those lines over the initial memory.  A window's
  block at a grid point is its array read through the block's rectangle.  The grid is 4 × 2: point t is
  batch t / 2 and half t % 2 of the 4096 rows.  The body zeroes its 128 × 128 accumulator exactly at the
  even points and computes the output block exactly at the odd points; its row offset into the 4096-row
  scratch is 0 at the even points and 2048 at the odd ones.
-/
import proofs.«172972_j40510131536516_2_alg».proof.Proof.Gen.KernelIdeal.Launch
import proofs.«172972_j40510131536516_2_alg».proof.Proof.Gen.KernelIdeal.Skeleton
import proofs.«172972_j40510131536516_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The contents of core c's buffers when the launch is reached: the host lines folded over the initial memory. -/
abbrev V (c : Dev nD) (b : Ref sig .tc) : Buf (Elt F) ((c : Thread nD τ).loc b) := StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The program is its host lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began -/

/-- From a run whose post names every array of the launch and leaves every other buffer as the launch found
    it, the seven argument arrays end unchanged: the input is a fetched window's array, the six others are
    staged by no window, and no host line writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's two conditions and its row offset, over the grid -/

/-- The first condition of the body: "this is the first half" (the second grid coordinate is 0). -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second condition of the body: "this is the last half" (the second grid coordinate is 1). -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The row offset into the 4096-row scratch is 0 at the even points -/
theorem hoff_even : ∀ t : Fin cfg0.N, t.val % 2 = 0 → k0_off1 (grid0.coords t) = ![0, 0] :=
  (by decide +kernel : ∀ t : Fin grid0.N, t.val % 2 = 0 → k0_off1 (grid0.coords t) = ![0, 0])
/-- and 2048 at the odd points. -/
theorem hoff_odd : ∀ t : Fin cfg0.N, t.val % 2 = 1 → k0_off1 (grid0.coords t) = ![2048, 0] :=
  (by decide +kernel : ∀ t : Fin grid0.N, t.val % 2 = 1 → k0_off1 (grid0.coords t) = ![2048, 0])

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second condition fails the body stores nothing into the output's buffer, -/
theorem idleAt0_3 : ∀ t : Fin cfg0.N, ¬cond0_1 (grid0.coords t) → cfg0.idle 3 (grid0.coords t) = true := by decide +kernel
/-- and the block is not written back there. -/
theorem noFlush0_3 : ∀ t : Fin cfg0.N, ¬cond0_1 (grid0.coords t) → (cfg0.win 3).flush t = false := by decide +kernel
/-- Where it holds the output's buffer is stored into. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x4096x128 .f32 := (Memref.whole cc0_stg3_0 : Memref sig .tc .vmem S1x4096x128 .f32).view
/-- Each window's current staging memref at point t, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .f32 := win0_3.stage (cfg0.slots t 3)
abbrev hs0_3 (t : Fin cfg0.N) : (ms0_3 t).IsWhole := hstage0_3 ((cfg0.slots t 3).cast nbuf0_3)
/-- The two scratch operands: the 128 × 128 accumulator and the 4096 × 128 copy of Q. -/
abbrev scM0_0 : Memref sig .tc .vmem S128x128 .f32 := Memref.whole cc0_scratch0
abbrev scM0_1 : Memref sig .tc .vmem S4096x128 .f32 := Memref.whole cc0_scratch1

/-- What the launch hands the body beside the windows: the two scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.FrameI.RunA.lean ====
/-
  The kernel body at an even grid point (the first half of a batch's rows), run once on arbitrary whole
  memrefs.  There the body zeroes the 128 × 128 accumulator, projects the block of 2048 rows to Q | K | V,
  adds Kᵀ V of the block to the accumulator, stores the block's Q into rows 0 … 2047 of the 4096-row
  scratch, and leaves the output's buffer untouched.  The run finds what the two scratch buffers end with
  as lists of written pieces.
-/
import proofs.«172972_j40510131536516_2_alg».proof.Proof.FrameI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first half's rows of the 4096-row scratch: offset (0, 0), extent 2048 × 128. -/
theorem inb_lo : ∀ a, (![0, 0] : Fin 2 → Nat) a + S2048x128.size a ≤ S4096x128.size a := by decide

set_option maxHeartbeats 1000000 in
/-- At a point where the first condition holds and the second fails, with row offset 0: on whole memrefs —
    the three inputs at x0, x1, x2, the output's buffer at any contents xi3, the two scratch buffers at
    anything — the body runs to the continuation holding the inputs and the output's buffer as they were
    and each scratch buffer with its pieces written. -/
noncomputable def kernelRun0_A (c : Dev nD) (i : grid0.Coords) (arg2 : Memref sig .tc .vmem S1x2048x1024 .f32) (harg2 : arg2.IsWhole) (arg3 : Memref sig .tc .vmem S1024x384 .bf16) (harg3 : arg3.IsWhole) (arg4 : Memref sig .tc .vmem S1x384 .f32) (harg4 : arg4.IsWhole) (arg5 : Memref sig .tc .vmem S1x4096x128 .f32) (harg5 : arg5.IsWhole) (arg6 : Memref sig .tc .vmem S128x128 .f32) (harg6 : arg6.IsWhole) (arg7 : Memref sig .tc .vmem S4096x128 .f32) (harg7 : arg7.IsWhole) (hc0 : cond0_0 i) (hc1 : ¬cond0_1 i) (hoff : k0_off1 i = ![0, 0])
    (x0 : Vec F S1x2048x1024 .f32) (x1 : Vec F S1024x384 .bf16) (x2 : Vec F S1x384 .f32) :
    Σ' (LS0 : List (View.Piece (Elt F) S128x128 .f32)), { LS1 : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun xi3 E K => ?run⟩
  case run =>
    simp only [cc0__fused_kernel_eq_skeleton]; unfold cc0__fused_kernel_skel
    simp only [hoff]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.FrameI.Outs.lean ====
/-
  What the body leaves behind, named through its payloads of the points' input blocks.

  Point t is batch t / 2, half t % 2.  With x, w, b the three input blocks of a point:
  the even point of a batch leaves the accumulator at accA = (Kᵀ V of its block) added to zero, and its
  2048 × 128 block of Q (qAt) in rows 0 … 2047 of the 4096-row scratch; the odd point, coming right after,
  leaves the accumulator at accB = accA of the point before plus Kᵀ V of its own block, the scratch at qFull
  — the first half's Q in rows 0 … 2047 and its own in rows 2048 … 4095 — and in the output's buffer
  outB = qFull · accB.
-/
import proofs.«172972_j40510131536516_2_alg».proof.Proof.FrameI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first half's rows of the 4096-row scratch: offset (0, 0), extent 2048 × 128; -/
theorem inb_lo' : ∀ a, (![0, 0] : Fin 2 → Nat) a + S2048x128.size a ≤ S4096x128.size a := by decide
/-- the second half's: offset (2048, 0). -/
theorem inb_hi : ∀ a, (![2048, 0] : Fin 2 → Nat) a + S2048x128.size a ≤ S4096x128.size a := by decide

/-- A 2048 × 128 block stored at rows 0 … 2047 of the 4096-row scratch, as a written piece; -/
abbrev pieceLo (q : Vec F S2048x128 .f32) : View.Piece (Elt F) S4096x128 .f32 :=
  ⟨Rect.unit (s := S4096x128) ![0, 0] S2048x128.size inb_lo', q⟩
/-- and one stored at rows 2048 … 4095. -/
abbrev pieceHi (q : Vec F S2048x128 .f32) : View.Piece (Elt F) S4096x128 .f32 :=
  ⟨Rect.unit (s := S4096x128) ![2048, 0] S2048x128.size inb_hi, q⟩

/-- The point before t (for an odd point: the first half of the same batch). -/
def prev (t : Fin cfg0.N) : Fin cfg0.N := ⟨t.val - 1, lt_of_le_of_lt (Nat.sub_le _ _) t.isLt⟩

/-- The accumulator after an even point: Kᵀ V of the point's block added to the zeroed accumulator. -/
def accA (c : Dev nD) (t : Fin cfg0.N) : Vec F S128x128 .f32 :=
  k0_pay3 (iblk m c 0 t) (iblk m c 1 t) (iblk m c 2 t) (k0_pay1 (F := F))

/-- The point's 2048 × 128 block of Q. -/
def qAt (c : Dev nD) (t : Fin cfg0.N) : Vec F S2048x128 .f32 :=
  k0_pay4 (iblk m c 0 t) (iblk m c 1 t) (iblk m c 2 t)

/-- The accumulator after an odd point: the point before's, plus Kᵀ V of this point's block. -/
def accB (c : Dev nD) (t : Fin cfg0.N) : Vec F S128x128 .f32 :=
  k0_pay3 (iblk m c 0 t) (iblk m c 1 t) (iblk m c 2 t) (accA m c (prev t))

/-- The 4096-row scratch after an odd point: the point before's Q in rows 0 … 2047, this point's in rows 2048 … 4095. -/
def qFull (c : Dev nD) (t : Fin cfg0.N) : Vec F S4096x128 .f32 :=
  View.canon [pieceHi (qAt m c t), pieceLo (qAt m c (prev t))]

/-- The output's buffer after an odd point: Q · (Kᵀ V) for all 4096 rows of the batch. -/
def outB (c : Dev nD) (t : Fin cfg0.N) : Vec F S1x4096x128 .f32 :=
  k0_pay5 (qFull m c t) (accB m c t)

end Cert.KernelIdeal.Hand

end
-- ==== Proof.FrameI.RunB.lean ====
/-
  The kernel body at an odd grid point (the second half of a batch's rows), run once on arbitrary whole
  memrefs.  There the body projects the block of 2048 rows to Q | K | V, adds Kᵀ V of the block to the
  accumulator the first half left, stores the block's Q into rows 2048 … 4095 of the 4096-row scratch,
  loads all 4096 rows of it and the accumulator, and writes their product into the output's buffer.  The
  run is stated for the scratch at any contents; it finds what the output's buffer and the two scratch
  buffers end with as lists of written pieces.
-/
import proofs.«172972_j40510131536516_2_alg».proof.Proof.FrameI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the first condition fails and the second holds: on whole memrefs — the three inputs at
    x0, x1, x2, the output's buffer at anything, the accumulator at xs0, the 4096-row scratch at xs1 — the
    body runs to the continuation holding the inputs as they were and the output's buffer and each scratch
    buffer with its pieces written. -/
noncomputable def kernelRun0_B (c : Dev nD) (i : grid0.Coords) (arg2 : Memref sig .tc .vmem S1x2048x1024 .f32) (harg2 : arg2.IsWhole) (arg3 : Memref sig .tc .vmem S1024x384 .bf16) (harg3 : arg3.IsWhole) (arg4 : Memref sig .tc .vmem S1x384 .f32) (harg4 : arg4.IsWhole) (arg5 : Memref sig .tc .vmem S1x4096x128 .f32) (harg5 : arg5.IsWhole) (arg6 : Memref sig .tc .vmem S128x128 .f32) (harg6 : arg6.IsWhole) (arg7 : Memref sig .tc .vmem S4096x128 .f32) (harg7 : arg7.IsWhole) (hc0 : ¬cond0_0 i) (hc1 : cond0_1 i)
    (x0 : Vec F S1x2048x1024 .f32) (x1 : Vec F S1024x384 .bf16) (x2 : Vec F S1x384 .f32) (xs0 : Vec F S128x128 .f32) (xs1 : Vec F S4096x128 .f32) :
    Σ' (L3 : List (View.Piece (Elt F) S1x4096x128 .f32)) (LS0 : List (View.Piece (Elt F) S128x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    clear hf0 hf1 hf2 hfs0 hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.FrameI.Frame.lean ====
/-
  The frame of this program, by hand: the proof data of its one launch, the body's obligation at every grid
  point, the run, and the frame claim.

  The grid is 4 × 2; point t is batch t / 2, half t % 2.  At an even point the body zeroes the 128 × 128
  accumulator, adds the block's Kᵀ V to it, and stores the block's Q into rows 0 … 2047 of the 4096-row
  scratch; the output's buffer is idle and not written back.  At the following odd point it adds the second
  block's Kᵀ V, stores the second block's Q into rows 2048 … 4095, and writes Q · (Kᵀ V) for all 4096 rows
  into the output's buffer, which is then written back.  So between the two points of a batch the invariant
  carries the accumulator at its first-half value and the scratch with its first-half piece written over
  whatever it held; before an even point (and after the last point) the scratch buffers hold anything.
  The two halves' pieces tile the 4096 rows, so what the odd point loads from the scratch — and hence what
  it leaves in the output's buffer — does not depend on what lay under them.
-/
import proofs.«172972_j40510131536516_2_alg».proof.Proof.FrameI.RunA
import proofs.«172972_j40510131536516_2_alg».proof.Proof.FrameI.RunB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the runs' pieces back -/

/-- A load of a whole buffer holding X reads X. -/
theorem readAt_whole {S : Shape} {e : EltTy} (mr : Memref sig .tc .vmem S e) (h : mr.IsWhole) {off : Fin S.rank → Nat}
    (hz : off = fun _ => 0) (inb : ∀ a, off a + S.size a ≤ S.size a) (X : S.Idx → Elt F e) :
    View.readAt (Elt F) mr.view (Rect.unit off S.size inb).toLoadRect (h.unread X) = X := by
  rw [View.readAt_eq_ld, h.read_unread, View.ld_unit_zero hz]

theorem hz2 : (![0, 0] : Fin 2 → Nat) = fun _ => 0 := by funext a; fin_cases a <;> rfl
theorem hz3 : (![0, 0, 0] : Fin 3 → Nat) = fun _ => 0 := by funext a; fin_cases a <;> rfl

/-- A piece of 2048 rows at a row offset known to be 0 is the first half's piece; -/
theorem piece_lo_of {off : Fin 2 → Nat} (h : off = ![0, 0]) (inb : ∀ a, off a + S2048x128.size a ≤ S4096x128.size a)
    (w : Vec F S2048x128 .f32) :
    (⟨Rect.unit (s := S4096x128) off S2048x128.size inb, w⟩ : View.Piece (Elt F) S4096x128 .f32) = pieceLo w := by
  subst h; rfl
/-- at a row offset known to be 2048, the second half's. -/
theorem piece_hi_of {off : Fin 2 → Nat} (h : off = ![2048, 0]) (inb : ∀ a, off a + S2048x128.size a ≤ S4096x128.size a)
    (w : Vec F S2048x128 .f32) :
    (⟨Rect.unit (s := S4096x128) off S2048x128.size inb, w⟩ : View.Piece (Elt F) S4096x128 .f32) = pieceHi w := by
  subst h; rfl

/-- The two halves' pieces tile the 4096 rows. -/
theorem cover_halves (qB qA : Vec F S2048x128 .f32) (y : S4096x128.Idx) :
    ∃ p ∈ [pieceHi qB, pieceLo qA], y ∈ p.1.set :=
  View.cover_of_tiledL [pieceHi qB, pieceLo qA] S2048x128.size (by sl_kernel_rfl) y

theorem inb_acc : ∀ a, (![0, 0] : Fin 2 → Nat) a + S128x128.size a ≤ S128x128.size a := by decide
theorem inb_out : ∀ a, (![0, 0, 0] : Fin 3 → Nat) a + S1x4096x128.size a ≤ S1x4096x128.size a := by decide

section Pieces
variable (c : Dev nD) (i : grid0.Coords) (arg2 : Memref sig .tc .vmem S1x2048x1024 .f32) (harg2 : arg2.IsWhole) (arg3 : Memref sig .tc .vmem S1024x384 .bf16) (harg3 : arg3.IsWhole) (arg4 : Memref sig .tc .vmem S1x384 .f32) (harg4 : arg4.IsWhole) (arg5 : Memref sig .tc .vmem S1x4096x128 .f32) (harg5 : arg5.IsWhole) (arg6 : Memref sig .tc .vmem S128x128 .f32) (harg6 : arg6.IsWhole) (arg7 : Memref sig .tc .vmem S4096x128 .f32) (harg7 : arg7.IsWhole)
  (x0 : Vec F S1x2048x1024 .f32) (x1 : Vec F S1024x384 .bf16) (x2 : Vec F S1x384 .f32)

/-- What the even point leaves in the 4096-row scratch: its block of Q, at rows 0 … 2047. -/
theorem runA_LS1 (hc0 : cond0_0 i) (hc1 : ¬cond0_1 i) (hoff : k0_off1 i = ![0, 0]) :
    (kernelRun0_A c i arg2 harg2 arg3 harg3 arg4 harg4 arg5 harg5 arg6 harg6 arg7 harg7 hc0 hc1 hoff x0 x1 x2).2.1 = [pieceLo (k0_pay4 x0 x1 x2)] := by
  unfold kernelRun0_A; dsimp only
  rw [readAt_whole arg2 harg2 hz3, readAt_whole arg3 harg3 hz2, readAt_whole arg4 harg4 hz2]
  exact congrArg (fun p => [p]) (piece_lo_of hoff _ _)

/-- What the even point leaves in the accumulator, read back through any view: the block's Kᵀ V added to zero. -/
theorem runA_acc (hc0 : cond0_0 i) (hc1 : ¬cond0_1 i) (hoff : k0_off1 i = ![0, 0])
    (v : View sig .tc .vmem S128x128 .f32) (f : v.ty.Contents (Elt F)) :
    v.read (Elt F) (v.writes (Elt F) f (kernelRun0_A c i arg2 harg2 arg3 harg3 arg4 harg4 arg5 harg5 arg6 harg6 arg7 harg7 hc0 hc1 hoff x0 x1 x2).1)
      = k0_pay3 x0 x1 x2 (k0_pay1 (F := F)) := by
  have e : (kernelRun0_A c i arg2 harg2 arg3 harg3 arg4 harg4 arg5 harg5 arg6 harg6 arg7 harg7 hc0 hc1 hoff x0 x1 x2).1
      = [(⟨Rect.unit (s := S128x128) ![0, 0] S128x128.size inb_acc, k0_pay3 x0 x1 x2 (k0_pay1 (F := F))⟩ : View.Piece (Elt F) S128x128 .f32),
         ⟨Rect.unit (s := S128x128) ![0, 0] S128x128.size inb_acc, k0_pay1 (F := F)⟩] := by
    unfold kernelRun0_A; dsimp only; sl_unfold_run_names
    rw [readAt_whole arg2 harg2 hz3, readAt_whole arg3 harg3 hz2, readAt_whole arg4 harg4 hz2, View.readCov_unit_zero _ hz2]
  rw [e, View.read_writes_eq_canon _ _ _ (fun y => ⟨_, List.mem_cons_self, View.mem_set_unit_zero hz2 inb_acc y⟩),
    View.canon_cons_unit_zero hz2]

/-- What the odd point leaves in the output's buffer, read back through any view, when the scratch held the
    first half's piece over anything: the product of the two halves' Q with the accumulated Kᵀ V. -/
theorem runB_out (hc0 : ¬cond0_0 i) (hc1 : cond0_1 i) (hoff : k0_off1 i = ![2048, 0]) (xs0 : Vec F S128x128 .f32)
    (qA : Vec F S2048x128 .f32) (g : arg7.view.ty.Contents (Elt F))
    (v : View sig .tc .vmem S1x4096x128 .f32) (f : v.ty.Contents (Elt F)) :
    v.read (Elt F) (v.writes (Elt F) f (kernelRun0_B c i arg2 harg2 arg3 harg3 arg4 harg4 arg5 harg5 arg6 harg6 arg7 harg7 hc0 hc1 x0 x1 x2 xs0
        (arg7.view.read (Elt F) (arg7.view.writes (Elt F) g [pieceLo qA]))).1)
      = k0_pay5 (View.canon [pieceHi (k0_pay4 x0 x1 x2), pieceLo qA]) (k0_pay3 x0 x1 x2 xs0) := by
  have e : (kernelRun0_B c i arg2 harg2 arg3 harg3 arg4 harg4 arg5 harg5 arg6 harg6 arg7 harg7 hc0 hc1 x0 x1 x2 xs0
        (arg7.view.read (Elt F) (arg7.view.writes (Elt F) g [pieceLo qA]))).1
      = [(⟨Rect.unit (s := S1x4096x128) ![0, 0, 0] S1x4096x128.size inb_out,
          k0_pay5 (View.canon [pieceHi (k0_pay4 x0 x1 x2), pieceLo qA]) (k0_pay3 x0 x1 x2 xs0)⟩ : View.Piece (Elt F) S1x4096x128 .f32)] := by
    unfold kernelRun0_B; dsimp only; sl_unfold_run_names
    rw [readAt_whole arg2 harg2 hz3, readAt_whole arg3 harg3 hz2, readAt_whole arg4 harg4 hz2, readAt_whole arg6 harg6 hz2,
      View.readCov_unit_zero _ hz2, harg7.unread_read, piece_hi_of hoff, ← View.writes_append _ _ [pieceHi (k0_pay4 x0 x1 x2)] [pieceLo qA],
      List.cons_append, List.nil_append,
      View.readAt_eq_ld, View.read_writes_eq_canon _ _ _ (cover_halves _ _), View.ld_unit_zero hz2]
  rw [e, View.read_writes_eq_canon _ _ _ (fun y => ⟨_, List.mem_singleton_self _, View.mem_set_unit_zero hz3 inb_out y⟩),
    View.canon_unit_zero hz3]

end Pieces

/-! ## The two cases of the body, with what they leave named -/

section Triples
variable (c : Dev nD) (i : grid0.Coords) (arg2 : Memref sig .tc .vmem S1x2048x1024 .f32) (harg2 : arg2.IsWhole) (arg3 : Memref sig .tc .vmem S1024x384 .bf16) (harg3 : arg3.IsWhole) (arg4 : Memref sig .tc .vmem S1x384 .f32) (harg4 : arg4.IsWhole) (arg5 : Memref sig .tc .vmem S1x4096x128 .f32) (harg5 : arg5.IsWhole) (arg6 : Memref sig .tc .vmem S128x128 .f32) (harg6 : arg6.IsWhole) (arg7 : Memref sig .tc .vmem S4096x128 .f32) (harg7 : arg7.IsWhole)
  (x0 : Vec F S1x2048x1024 .f32) (x1 : Vec F S1024x384 .bf16) (x2 : Vec F S1x384 .f32)

/-- The body at an even point: the inputs and the output's buffer come back as they were, the accumulator holds
    the block's Kᵀ V added to zero, and the 4096-row scratch holds the block's Q in rows 0 … 2047 over whatever
    it held. -/
theorem run_even (hc0 : cond0_0 i) (hc1 : ¬cond0_1 i) (hoff : k0_off1 i = ![0, 0])
    (xi3 : Vec F S1x4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k0_pay3 x0 x1 x2 (k0_pay1 (F := F)))
            ∗ (∃ f, arg7.view.loc (c : Thread nD τ) ↦[arg7.view.set]{fullShare} arg7.view.writes (Elt F) f [pieceLo (k0_pay4 x0 x1 x2)])) -∗ K ⟨⟩))
      ⊢ wp frame (wpE (defs₀ (F := F)) Variants.none c none) E (cc0__fused_kernel i arg2 harg2 arg3 harg3 arg4 harg4 arg5 harg5 arg6 harg6 arg7 harg7) K := by
  iintro ⟨H0, H1, H2, H3, HS0, HS1, Hk⟩
  iapply ((kernelRun0_A c i arg2 harg2 arg3 harg3 arg4 harg4 arg5 harg5 arg6 harg6 arg7 harg7 hc0 hc1 hoff x0 x1 x2).2.2 xi3 E K)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f6, HS0⟩, HS1⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact runA_acc c i arg2 harg2 arg3 harg3 arg4 harg4 arg5 harg5 arg6 harg6 arg7 harg7 x0 x1 x2 hc0 hc1 hoff _ _
  rw [← runA_LS1 c i arg2 harg2 arg3 harg3 arg4 harg4 arg5 harg5 arg6 harg6 arg7 harg7 x0 x1 x2 hc0 hc1 hoff]
  iexact HS1

/-- The body at an odd point, the accumulator at xs0 and the 4096-row scratch holding a block qA in rows
    0 … 2047 over anything: the inputs come back as they were, the output's buffer holds the product of the
    scratch — qA above this block's Q — with this block's Kᵀ V added to xs0; the scratch buffers hold something. -/
theorem run_odd (hc0 : ¬cond0_0 i) (hc1 : cond0_1 i) (hoff : k0_off1 i = ![2048, 0])
    (xs0 : Vec F S128x128 .f32) (qA : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare xs0
        ∗ (∃ f, arg7.view.loc (c : Thread nD τ) ↦[arg7.view.set]{fullShare} arg7.view.writes (Elt F) f [pieceLo qA])
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 (View.canon [pieceHi (k0_pay4 x0 x1 x2), pieceLo qA]) (k0_pay3 x0 x1 x2 xs0))
            ∗ (∃ d, owns (c : Thread nD τ) arg6 fullShare d) ∗ (∃ d, owns (c : Thread nD τ) arg7 fullShare d)) -∗ K ⟨⟩))
      ⊢ wp frame (wpE (defs₀ (F := F)) Variants.none c none) E (cc0__fused_kernel i arg2 harg2 arg3 harg3 arg4 harg4 arg5 harg5 arg6 harg6 arg7 harg7) K := by
  iintro ⟨H0, H1, H2, H3, HS0, ⟨%g, HS1⟩, Hk⟩
  iapply ((kernelRun0_B c i arg2 harg2 arg3 harg3 arg4 harg4 arg5 harg5 arg6 harg6 arg7 harg7 hc0 hc1 x0 x1 x2 xs0 (arg7.view.read (Elt F) (arg7.view.writes (Elt F) g [pieceLo qA]))).2.2.2 E K)
  isplitl [H0]; · iexact H0
  isplitl [H1]; · iexact H1
  isplitl [H2]; · iexact H2
  isplitl [H3]; · iexact H3
  isplitl [HS0]; · iexact HS0
  isplitl [HS1]
  · unfold owns; iexists _; isplitr
    swap; · iexact HS1
    ipureintro; rfl
  iintro ⟨H0, H1, H2, ⟨%f5, H3⟩, ⟨%f6, HS0⟩, ⟨%f7, HS1⟩⟩
  iapply Hk
  isplitl [H0]; · iexact H0
  isplitl [H1]; · iexact H1
  isplitl [H2]; · iexact H2
  isplitl [H3]
  · unfold owns; iexists _; isplitr
    swap; · iexact H3
    ipureintro; exact runB_out c i arg2 harg2 arg3 harg3 arg4 harg4 arg5 harg5 arg6 harg6 arg7 harg7 x0 x1 x2 hc0 hc1 hoff xs0 qA g _ _
  isplitl [HS0]
  · iexists _; unfold owns; iexists _; isplitr
    swap; · iexact HS0
    ipureintro; rfl
  iexists _; unfold owns; iexists _; isplitr
  swap; · iexact HS1
  ipureintro; rfl

end Triples

/-! ## The invariant between points -/

theorem hc0_even (t : Fin cfg0.N) (he : t.val % 2 = 0) : cond0_0 (grid0.coords t) := (hcond0_0 t).mpr he
theorem hc1_even (t : Fin cfg0.N) (he : t.val % 2 = 0) : ¬cond0_1 (grid0.coords t) := fun h => by
  have := (hcond0_1 t).mp h; omega
theorem hc0_odd (t : Fin cfg0.N) (ho : t.val % 2 = 1) : ¬cond0_0 (grid0.coords t) := fun h => by
  have := (hcond0_0 t).mp h; omega
theorem hc1_odd (t : Fin cfg0.N) (ho : t.val % 2 = 1) : cond0_1 (grid0.coords t) := (hcond0_1 t).mpr ho

/-- The invariant before position n: after an even point (n odd) the accumulator at that point's value and the
    4096-row scratch with that point's block of Q written in rows 0 … 2047; otherwise the two scratch buffers at
    anything.  The generator register at some state throughout. -/
def PhiS (c : Dev nD) (n : ℕ) (hn : n ≤ cfg0.N) : sProp 𝕄 :=
  if ho : n % 2 = 1 then
    iprop(iprop(owns (c : Thread nD τ) scM0_0 fullShare (accA m c ⟨n - 1, by omega⟩)
        ∗ (∃ f, scM0_1.view.loc (c : Thread nD τ) ↦[scM0_1.view.set]{fullShare} scM0_1.view.writes (Elt F) f [pieceLo (qAt m c ⟨n - 1, by omega⟩)]))
      ∗ (∃ r, prngReg c r))
  else Pipeline.ΦA spec0 c

theorem PhiS_even (c : Dev nD) (n : ℕ) (hn : n ≤ cfg0.N) (he : n % 2 = 0) : PhiS m c n hn = Pipeline.ΦA spec0 c :=
  dif_neg (by omega)

/-- After an even point t. -/
theorem PhiS_after_even (c : Dev nD) (t : Fin cfg0.N) (he : t.val % 2 = 0) :
    PhiS m c (t.val + 1) t.isLt
      = iprop(iprop(owns (c : Thread nD τ) scM0_0 fullShare (accA m c t)
          ∗ (∃ f, scM0_1.view.loc (c : Thread nD τ) ↦[scM0_1.view.set]{fullShare} scM0_1.view.writes (Elt F) f [pieceLo (qAt m c t)]))
        ∗ (∃ r, prngReg c r)) := by
  unfold PhiS; rw [dif_pos (by omega)]; rfl

/-- Before an odd point t: what the point before left. -/
theorem PhiS_before_odd (c : Dev nD) (t : Fin cfg0.N) (ho : t.val % 2 = 1) :
    PhiS m c t.val (Nat.le_of_lt t.isLt)
      = iprop(iprop(owns (c : Thread nD τ) scM0_0 fullShare (accA m c (prev t))
          ∗ (∃ f, scM0_1.view.loc (c : Thread nD τ) ↦[scM0_1.view.set]{fullShare} scM0_1.view.writes (Elt F) f [pieceLo (qAt m c (prev t))]))
        ∗ (∃ r, prngReg c r)) := by
  unfold PhiS; rw [dif_pos ho]; rfl

/-! ## The proof data of the launch -/

/-- On core c: the arrays as the launch finds them; after the body at point t each input's buffer at its block and
    the output's at Q · (Kᵀ V) of the batch (consulted at the odd points only: at the even ones the window is idle
    and not written back); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: by the point's parity one of the two cases applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, Phi_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases he : t.val % 2 = 0
  · rw [PhiS_even m c _ _ he, PhiS_after_even m c t he, PhiA0_eq]
    rw [Dat.leavesExact_idle (dats m 0 c) 3 t (idleAt0_3 t (hc1_even t he)) (noFlush0_3 t (hc1_even t he))]
    unfold accA qAt
    iintro ⟨⟨⟨HS0, HS1⟩, Hg⟩, Ho, ⟨%d0, H0⟩, ⟨%d1, H1⟩, ⟨%d2, H2⟩, ⟨%d3, H3⟩⟩
    iapply (run_even c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (iblk m c 0 t) (iblk m c 1 t) (iblk m c 2 t) (hc0_even t he) (hc1_even t he) (hoff_even t he) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexists _; iexact H3
  · have ho : t.val % 2 = 1 := by omega
    rw [PhiS_before_odd m c t ho, PhiS_even m c (t.val + 1) _ (by omega), PhiA0_eq]
    rw [show (dats m 0 c).leavesExact 3 t = owns (c : Thread nD τ) (ms0_3 t) fullShare ((dats m 0 c).after 3 t) from by
      unfold Dat.leavesExact; rw [liveAt0_3 t (hc1_odd t ho)], after0_3]
    unfold outB accB qFull accA qAt
    iintro ⟨⟨⟨HS0, HS1⟩, Hg⟩, Ho, ⟨%d0, H0⟩, ⟨%d1, H1⟩, ⟨%d2, H2⟩, ⟨%d3, H3⟩⟩
    iapply (run_odd c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (iblk m c 0 t) (iblk m c 1 t) (iblk m c 2 t) (hc0_odd t ho) (hc1_odd t ho) (hoff_odd t ho) _ _ Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the body is the invariant before the first point, -/
theorem hin (c : Dev nD) : Pipeline.ΦA spec0 c ⊢ (dats m 0 c).Φ 0 := by
  rw [show (dats m 0 c).Φ 0 = PhiS m c 0 (Nat.zero_le _) from rfl, PhiS_even m c 0 _ rfl]

/-- and after the last point the invariant is that again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_even m c _ _ (by rw [Fin.val_last]; have : cfg0.N = 8 := N_0; omega)]

/-! ## The run and the frame -/

set_option backward.isDefEq.respectTransparency.types false in
/-- Every weakly fair execution of the program on the core terminates, and every final state has every array of
    the launch at what the library computes from the proof data and every other unscoped buffer as the launch
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end without a fault and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Payloads.lean ====
/-
  The kernel body's five pure values read at an index, at the ideal values (a float an extended real).

  A row block of 2048 rows is projected by the fused weight matrix [1024, 384] and the fused bias [1, 384]:
      P[r, j] = (∑ e, x[0, r, e] · w[e, j]) + b[0, j];
  its columns 0 … 127 are the block's Q rows, its columns 128 … 255 the K rows, its columns 256 … 383 the
  V rows.  The accumulator starts at zero, each block adds Kᵀ V of its rows,
      acc'[a, v] = acc[a, v] + ∑ r, P[r, 128 + a] · P[r, 256 + v],
  and the result is the stored Q rows times the accumulator, out[0, i, v] = ∑ a, qs[i, a] · acc[a, v].
  A rounding to a narrower format is the identity at the ideal values.
-/
import proofs.«172972_j40510131536516_2_alg».proof.Proof.Gen.KernelIdeal.Skeleton
import proofs.«172972_j40510131536516_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KerValue

open Cert.KernelIdeal Cert.KernelIdeal.Gen Idealize.ShloMosaic Idealize.ShloMosaic.ValueIdx
open Cert.Lib.PlainDot
open scoped BigOperators

/-! ## A matrix product's operand indices at an output index given by its coordinates -/

/-- The left operand is read at (r, k). -/
theorem rowIdx_ix2 {R K C : Nat} (r : Fin R) (c : Fin C) (k : Fin K) :
    rowIdx (R := R) (K := K) (C := C) (ix2 r c) k = ix2 r k :=
  funext fun d => Fin.ext (by match d with | ⟨0, _⟩ => rfl | ⟨1, _⟩ => rfl)

/-- The right operand is read at (k, c). -/
theorem colIdx_ix2 {R K C : Nat} (r : Fin R) (c : Fin C) (k : Fin K) :
    colIdx (R := R) (K := K) (C := C) (ix2 r c) k = ix2 k c :=
  funext fun d => Fin.ext (by match d with | ⟨0, _⟩ => rfl | ⟨1, _⟩ => rfl)

/-! ## The five values -/

/-- The accumulator's initial value is zero everywhere. -/
theorem pay1_apply (a v : Fin 128) : k0_pay1 (F := Ideal) (ix2 a v) = 0 := by
  unfold k0_pay1
  rw [shapeCast_self]
  exact Ideal.ofBits_zero_f32

/-- The fused projection of a row block: P[r, j] = (∑ e, x[0, r, e] · w[e, j]) + b[0, j]. -/
theorem pay2_apply (x : Vec Ideal S1x2048x1024 .f32) (w : Vec Ideal S1024x384 .bf16) (b : Vec Ideal S1x384 .f32)
    (r : Fin 2048) (j : Fin 384) :
    k0_pay2 (F := Ideal) x w b (ix2 r j) = (∑ e : Fin 1024, x (ix3 0 r e) * w (ix2 e j)) + b (ix2 0 j) := by
  unfold k0_pay2
  refine (addf_apply _ _ _).trans ?_
  congr 1
  · refine (matmul_zero_apply _ rfl none _ _ _).trans ?_
    unfold mm
    refine Finset.sum_congr rfl fun e _ => ?_
    rw [rowIdx_ix2, colIdx_ix2, shapeCast_self]
    exact congrArg (· * w (ix2 e j)) (shapeCast_1ab_ab_apply x _ r e)
  · rw [shapeCast_self]
    exact broadcastTo_1b_ab_apply b _ r j

/-- The block's Q rows are the projection's columns 0 … 127. -/
theorem pay4_apply (x : Vec Ideal S1x2048x1024 .f32) (w : Vec Ideal S1024x384 .bf16) (b : Vec Ideal S1x384 .f32)
    (r : Fin 2048) (a : Fin 128) :
    k0_pay4 (F := Ideal) x w b (ix2 r a) = k0_pay2 (F := Ideal) x w b (ix2 r ⟨a.val, by omega⟩) := by
  unfold k0_pay4
  rw [shapeCast_self]
  exact slice2_axis1_apply 0 _ _ r a ⟨a.val, by omega⟩ (Nat.zero_add _).symm

/-- A block adds Kᵀ V of its rows to the accumulator. -/
theorem pay3_apply (x : Vec Ideal S1x2048x1024 .f32) (w : Vec Ideal S1024x384 .bf16) (b : Vec Ideal S1x384 .f32)
    (acc : Vec Ideal S128x128 .f32) (a v : Fin 128) :
    k0_pay3 (F := Ideal) x w b acc (ix2 a v)
      = acc (ix2 a v) + ∑ r : Fin 2048, k0_pay2 (F := Ideal) x w b (ix2 r ⟨128 + a.val, by omega⟩)
          * k0_pay2 (F := Ideal) x w b (ix2 r ⟨256 + v.val, by omega⟩) := by
  unfold k0_pay3
  rw [shapeCast_self]
  refine (addf_apply _ _ _).trans ?_
  congr 1
  refine (matmul_zero_apply _ rfl none _ _ _).trans ?_
  unfold mm
  refine Finset.sum_congr rfl fun r _ => ?_
  rw [rowIdx_ix2, colIdx_ix2]
  refine congrArg₂ (· * ·) ?_ ?_
  · refine (transpose_ix2_apply _ _ a r).trans ?_
    show extractStridedSlice S2048x128 ![0, 128] (k0_pay2 (F := Ideal) x w b) slices_S2048x384_o0_128_S2048x128 (ix2 r a) = _
    exact slice2_axis1_eq 128 _ _ r a
  · show extractStridedSlice S2048x128 ![0, 256] (k0_pay2 (F := Ideal) x w b) slices_S2048x384_o0_256_S2048x128 (ix2 r v) = _
    exact slice2_axis1_eq 256 _ _ r v

/-- The result: the stored Q rows times the accumulator. -/
theorem pay5_apply (qs : Vec Ideal S4096x128 .f32) (acc : Vec Ideal S128x128 .f32) (i : Fin 4096) (v : Fin 128) :
    k0_pay5 (F := Ideal) qs acc (ix3 0 i v) = ∑ a : Fin 128, qs (ix2 i a) * acc (ix2 a v) := by
  unfold k0_pay5
  refine (shapeCast_ab_1ab_apply _ _ 0 i v).trans ?_
  refine (matmul_zero_apply _ rfl none _ _ _).trans ?_
  unfold mm
  exact Finset.sum_congr rfl fun a _ => by rw [rowIdx_ix2, colIdx_ix2]; rfl

end Cert.KernelIdeal.KerValue

end
-- ==== Proof.KerPrefix.lean ====
/-
  What the host lines before the launch leave in the two buffers the kernel's second and third windows
  stage.

  The fused weight matrix [1024, 384] is the three weight matrices [128, 1024], each transposed, side by
  side (a rounding to a narrower format is the identity at the ideal values): its entry (e, 128·n + a)
  is entry (a, e) of weight matrix n.  The fused bias [1, 384] is the three bias vectors [128] one after
  the other, as one row: its entry (0, 128·n + a) is entry a of bias n.
-/
import proofs.«172972_j40510131536516_2_alg».proof.Proof.FrameI.Entry
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.KerValue

open Cert.KernelIdeal Cert.KernelIdeal.Gen Idealize.ShloMosaic Idealize.ShloMosaic.ValueIdx Idealize.ShloMosaic.TcCoe
open Idealize.SL.Sem Idealize.ShloMosaic.StableHlo

/-! ## Three pieces of extent 128 joined along one axis -/

/-- Three [1024, 128] blocks side by side: column 128·n + a of the result is column a of block n. -/
theorem cat_cols (f : Fin 3 → (S1024x128.Idx → EReal))
    (h : Shape.Concatenates ([(⟨S1024x128, f 0⟩ : (s : Shape) × (s.Idx → EReal)), ⟨S1024x128, f 1⟩, ⟨S1024x128, f 2⟩].map (·.1)) S1024x384 1)
    (e : Fin 1024) (n : Fin 3) (a : Fin 128) (col : Fin 384) (hcol : col.val = 128 * n.val + a.val) :
    concatenate S1024x384 1 [⟨S1024x128, f 0⟩, ⟨S1024x128, f 1⟩, ⟨S1024x128, f 2⟩] h (ix2 e col) = f n (ix2 e a) := by
  have hn := n.isLt
  have ha := a.isLt
  refine concatenate_ofFn_apply (t := S1024x384) (s₁ := S1024x128) 1 f h rfl 128 rfl (ix2 e col) n ?_ (ix2 e a) ?_ ?_
  · show col.val / 128 = n.val
    omega
  · show a.val = col.val % 128
    omega
  · intro b hb
    match b with
    | ⟨0, _⟩ => rfl
    | ⟨1, _⟩ => exact absurd (Fin.ext rfl) hb

/-- Three [128] vectors one after the other: entry 128·n + a of the result is entry a of vector n. -/
theorem cat_vec (f : Fin 3 → (S128.Idx → EReal))
    (h : Shape.Concatenates ([(⟨S128, f 0⟩ : (s : Shape) × (s.Idx → EReal)), ⟨S128, f 1⟩, ⟨S128, f 2⟩].map (·.1)) S384 0)
    (n : Fin 3) (a : Fin 128) (col : Fin 384) (hcol : col.val = 128 * n.val + a.val) :
    concatenate S384 0 [⟨S128, f 0⟩, ⟨S128, f 1⟩, ⟨S128, f 2⟩] h (ix1 col) = f n (ix1 a) := by
  have hn := n.isLt
  have ha := a.isLt
  refine concatenate_ofFn_apply (t := S384) (s₁ := S128) 0 f h rfl 128 rfl (ix1 col) n ?_ (ix1 a) ?_ ?_
  · show col.val / 128 = n.val
    omega
  · show a.val = col.val % 128
    omega
  · intro b hb
    match b with
    | ⟨0, _⟩ => exact absurd (Fin.ext rfl) hb

variable (m : (ℓ : Loc nD τ sig) → Buf (Elt Ideal) ℓ) (c : Dev nD)

/-! ## The two buffers as terms over the argument buffers -/

/-- The three weight matrices, each transposed. -/
def wT (n : Fin 3) : S1024x128.Idx → EReal :=
  transpose S1024x128 [1, 0]
    ((![m ((c : Thread nD τ).loc main_arg1), m ((c : Thread nD τ).loc main_arg3), m ((c : Thread nD τ).loc main_arg5)]
      : Fin 3 → (S128x1024.Idx → EReal)) n) transposes_S128x1024_S1024x128_1_0

/-- The three bias vectors. -/
def bs (n : Fin 3) : S128.Idx → EReal :=
  (![m ((c : Thread nD τ).loc main_arg2), m ((c : Thread nD τ).loc main_arg4), m ((c : Thread nD τ).loc main_arg6)]
    : Fin 3 → (S128.Idx → EReal)) n

/-- The fused weight matrix is the three transposed weight matrices side by side. -/
theorem V_w_eq : @Eq (S1024x384.Idx → EReal) (Hand.V (F := Ideal) m c main_v4)
    (concatenate S1024x384 1 [⟨S1024x128, wT m c 0⟩, ⟨S1024x128, wT m c 1⟩, ⟨S1024x128, wT m c 2⟩]
      concatenates_S1024x128_S1024x128_S1024x128_S1024x384_d1) := by
  dsimp only [Hand.V, Gen.hostOps0]
  after_results
  rfl

/-- The fused bias is the three bias vectors one after the other, as one row. -/
theorem V_b_eq : @Eq (S1x384.Idx → EReal) (Hand.V (F := Ideal) m c main_v6)
    (shapeCast S1x384 (concatenate S384 0 [⟨S128, bs m c 0⟩, ⟨S128, bs m c 1⟩, ⟨S128, bs m c 2⟩]
      concatenates_S128_S128_S128_S384_d0) shapeCasts_S384_S1x384) := by
  dsimp only [Hand.V, Gen.hostOps0]
  after_results
  rfl

/-! ## The two buffers at an index -/

/-- Entry (e, 128·n + a) of the fused weight matrix is entry (a, e) of weight matrix n. -/
theorem V_w (n : Fin 3) (a : Fin 128) (e : Fin 1024) (col : Fin 384) (hcol : col.val = 128 * n.val + a.val) :
    Hand.V (F := Ideal) m c main_v4 (ix2 e col)
      = (![m ((c : Thread nD τ).loc main_arg1), m ((c : Thread nD τ).loc main_arg3), m ((c : Thread nD τ).loc main_arg5)]
          : Fin 3 → (S128x1024.Idx → EReal)) n (ix2 a e) := by
  refine (congrFun (V_w_eq m c) (ix2 e col)).trans ?_
  refine (cat_cols (wT m c) _ e n a col hcol).trans ?_
  unfold wT
  exact transpose_ix2_apply _ _ e a

/-- Entry (0, 128·n + a) of the fused bias is entry a of bias n. -/
theorem V_b (n : Fin 3) (a : Fin 128) (col : Fin 384) (hcol : col.val = 128 * n.val + a.val) :
    Hand.V (F := Ideal) m c main_v6 (ix2 0 col)
      = (![m ((c : Thread nD τ).loc main_arg2), m ((c : Thread nD τ).loc main_arg4), m ((c : Thread nD τ).loc main_arg6)]
          : Fin 3 → (S128.Idx → EReal)) n (ix1 a) := by
  refine (congrFun (V_b_eq m c) (ix2 0 col)).trans ?_
  refine (shapeCast_a_1a_apply _ _ 0 col).trans ?_
  exact cat_vec (bs m c) _ n a col hcol

theorem V_w_q (a : Fin 128) (e : Fin 1024) :
    Hand.V (F := Ideal) m c main_v4 (ix2 e ⟨a.val, by omega⟩) = m ((c : Thread nD τ).loc main_arg1) (ix2 a e) :=
  V_w m c 0 a e _ (by show a.val = 128 * 0 + a.val; omega)
theorem V_w_k (a : Fin 128) (e : Fin 1024) :
    Hand.V (F := Ideal) m c main_v4 (ix2 e ⟨128 + a.val, by omega⟩) = m ((c : Thread nD τ).loc main_arg3) (ix2 a e) :=
  V_w m c 1 a e _ (by show 128 + a.val = 128 * 1 + a.val; omega)
theorem V_w_v (a : Fin 128) (e : Fin 1024) :
    Hand.V (F := Ideal) m c main_v4 (ix2 e ⟨256 + a.val, by omega⟩) = m ((c : Thread nD τ).loc main_arg5) (ix2 a e) :=
  V_w m c 2 a e _ (by show 256 + a.val = 128 * 2 + a.val; omega)
theorem V_b_q (a : Fin 128) :
    Hand.V (F := Ideal) m c main_v6 (ix2 0 ⟨a.val, by omega⟩) = m ((c : Thread nD τ).loc main_arg2) (ix1 a) :=
  V_b m c 0 a _ (by show a.val = 128 * 0 + a.val; omega)
theorem V_b_k (a : Fin 128) :
    Hand.V (F := Ideal) m c main_v6 (ix2 0 ⟨128 + a.val, by omega⟩) = m ((c : Thread nD τ).loc main_arg4) (ix1 a) :=
  V_b m c 1 a _ (by show 128 + a.val = 128 * 1 + a.val; omega)
theorem V_b_v (a : Fin 128) :
    Hand.V (F := Ideal) m c main_v6 (ix2 0 ⟨256 + a.val, by omega⟩) = m ((c : Thread nD τ).loc main_arg6) (ix1 a) :=
  V_b m c 2 a _ (by show 256 + a.val = 128 * 2 + a.val; omega)

end Cert.KernelIdeal.KerValue

end
-- ==== Proof.KerBlocks.lean ====
/-
  The three input windows' blocks, read at an index.

  The grid is 4 × 2 and point t is batch t / 2 and half t % 2.  An element of a window's block at point t
  sits in the window's array, on each axis, at the block index times the block size plus its own
  coordinate.  The input's block is [1, 2048, 1024] at block index (t / 2, t % 2, 0), so its element
  (0, r, e) is the input's element (t / 2, 2048 · (t % 2) + r, e), and no line before the launch writes
  the input.  The blocks of the joined, rounded weight matrix [1024, 384] and of the joined bias row [1, 384] are
  the whole arrays at block index (0, 0), so their elements are the arrays' own.
-/
import proofs.«172972_j40510131536516_2_alg».proof.Proof.FrameI.Entry
import Idealize.ShloMosaic.Lib.Pipeline.Value
import Idealize.ShloMosaic.Lib.ValueIdx

set_option maxRecDepth 16384

noncomputable section

namespace Cert.KernelIdeal.KerValue

open Cert.KernelIdeal Cert.KernelIdeal.Gen Cert.KernelIdeal.Hand Idealize.ShloMosaic Idealize.ShloMosaic.TcCoe Idealize.ShloMosaic.ValueIdx

variable {F : FTy → Type} [FloatOps F]
variable (m : (ℓ : Loc nD τ sig) → Buf (Elt F) ℓ) (c : Dev nD) (t : Fin cfg0.N)

/-- The input window's block index at point t is (t / 2, t % 2, 0), decided over the eight points. -/
theorem idx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)

/-- The weight window's block index is (0, 0) at every point. -/
theorem idx1 : ∀ t : Fin cfg0.N, win0_1.index t (0 : Fin 2) = 0 ∧ win0_1.index t (1 : Fin 2) = 0 :=
  (by decide +kernel : ∀ t : Fin grid0.N, _)

/-- The bias window's block index is (0, 0) at every point. -/
theorem idx2 : ∀ t : Fin cfg0.N, win0_2.index t (0 : Fin 2) = 0 ∧ win0_2.index t (1 : Fin 2) = 0 :=
  (by decide +kernel : ∀ t : Fin grid0.N, _)

/-- Element (0, r, e) of the input's block at point t is the input as launched at
    (t / 2, 2048 · (t % 2) + r, e). -/
theorem iblk0_apply (r : Fin 2048) (e : Fin 1024) :
    Hand.iblk m c 0 t (ix3 0 r e)
      = m ((c : Thread nD τ).loc main_arg0)
          (ix3 ⟨t.val / 2, by have hN : grid0.N = 8 := Gen.N_0; have ht : t.val < grid0.N := t.isLt; omega⟩
            ⟨2048 * (t.val % 2) + r.val, by have hr := r.isLt; omega⟩ e) := by
  obtain ⟨e0, e1, e2⟩ := idx0 t
  unfold Hand.iblk
  rw [View.read_apply]
  show Hand.V m c main_arg0 _ = m ((c : Thread nD τ).loc main_arg0) _
  rw [Hand.V_main_arg0]
  congr 1
  funext a
  apply Fin.ext
  match a with
  | ⟨0, _⟩ => show win0_0.index t (0 : Fin 3) * 1 + 1 * 0 = t.val / 2; omega
  | ⟨1, _⟩ => show win0_0.index t (1 : Fin 3) * 2048 + 1 * r.val = 2048 * (t.val % 2) + r.val; omega
  | ⟨2, _⟩ => show win0_0.index t (2 : Fin 3) * 1024 + 1 * e.val = e.val; omega

/-- Element (e, j) of the weight window's block is the joined, rounded weight matrix at (e, j). -/
theorem iblk1_apply (e : Fin 1024) (j : Fin 384) : Hand.iblk m c 1 t (ix2 e j) = Hand.V m c main_v4 (ix2 e j) := by
  obtain ⟨e0, e1⟩ := idx1 t
  unfold Hand.iblk
  rw [View.read_apply]
  show Hand.V m c main_v4 _ = Hand.V m c main_v4 _
  congr 1
  funext a
  apply Fin.ext
  match a with
  | ⟨0, _⟩ => show win0_1.index t (0 : Fin 2) * 1024 + 1 * e.val = e.val; omega
  | ⟨1, _⟩ => show win0_1.index t (1 : Fin 2) * 384 + 1 * j.val = j.val; omega

/-- Element (0, j) of the bias window's block is the joined bias row at (0, j). -/
theorem iblk2_apply (j : Fin 384) : Hand.iblk m c 2 t (ix2 0 j) = Hand.V m c main_v6 (ix2 0 j) := by
  obtain ⟨e0, e1⟩ := idx2 t
  unfold Hand.iblk
  rw [View.read_apply]
  show Hand.V m c main_v6 _ = Hand.V m c main_v6 _
  congr 1
  funext a
  apply Fin.ext
  match a with
  | ⟨0, _⟩ => show win0_2.index t (0 : Fin 2) * 1 + 1 * 0 = 0; omega
  | ⟨1, _⟩ => show win0_2.index t (1 : Fin 2) * 384 + 1 * j.val = j.val; omega

end Cert.KernelIdeal.KerValue

end
-- ==== Proof.Spec.lean ====
/-
  The mathematics of the certificate, with no program in sight.

  The input is X : [4, 4096, 1024] with three linear layers (Wq, bq), (Wk, bk), (Wv, bv), each W : [128, 1024]
  and b : [128].  For batch n, row i and feature a, a layer gives
      lin X W b n i a = (∑ e, X[n, i, e] · W[a, e]) + b[a].
  With Q, K, V the three layers, the reference computes the unnormalised attention (Q Kᵀ) V:
      attnRef n i v = ∑ j, (∑ k, Q[n,i,k] · K[n,j,k]) · V[n,j,v],
  and the kernel computes Q (Kᵀ V), the 128 × 128 matrix Kᵀ V accumulated from zero over the two halves
  of the 4096 rows:
      attnKer n i v = ∑ a, Q[n,i,a] · ((0 + ∑ r < 2048, K[n,r,a] · V[n,r,v]) + ∑ r < 2048, K[n,2048+r,a] · V[n,2048+r,v]).
  On real inputs the two agree: both are the triple sum ∑ j, ∑ a, Q[n,i,a] · K[n,j,a] · V[n,j,v], by
  distributivity and exchanging the order of summation; on the extended reals distributivity needs the
  entries to be real numbers, which is what the precondition provides.
-/
import Idealize.ShloMosaic.PureOps.Ideal
import Idealize.ShloMosaic.Lib.ValueIdx

noncomputable section

namespace Cert.Attn

open Idealize.ShloMosaic Idealize.ShloMosaic.ValueIdx
open scoped BigOperators

/-- The shapes of the input, of a weight matrix, of a bias and of the result. -/
abbrev SX : Shape := ⟨3, ![4, 4096, 1024]⟩
abbrev SW : Shape := ⟨2, ![128, 1024]⟩
abbrev SB : Shape := ⟨1, ![128]⟩
abbrev SO : Shape := ⟨3, ![4, 4096, 128]⟩

/-- Row r of the first half of the 4096 rows. -/
def lo (r : Fin 2048) : Fin 4096 := ⟨r.val, by omega⟩
/-- Row 2048 + r: row r of the second half. -/
def hi (r : Fin 2048) : Fin 4096 := ⟨2048 + r.val, by omega⟩

/-- One linear layer x · Wᵀ + b at batch n, row i, feature a. -/
def lin (X : SX.Idx → EReal) (W : SW.Idx → EReal) (b : SB.Idx → EReal) (n : Fin 4) (i : Fin 4096) (a : Fin 128) : EReal :=
  (∑ e : Fin 1024, X (ix3 n i e) * W (ix2 a e)) + b (ix1 a)

/-- The reference's entry: (Q Kᵀ) V. -/
def attnRef (X : SX.Idx → EReal) (Wq : SW.Idx → EReal) (bq : SB.Idx → EReal) (Wk : SW.Idx → EReal) (bk : SB.Idx → EReal)
    (Wv : SW.Idx → EReal) (bv : SB.Idx → EReal) (n : Fin 4) (i : Fin 4096) (v : Fin 128) : EReal :=
  ∑ j : Fin 4096, (∑ k : Fin 128, lin X Wq bq n i k * lin X Wk bk n j k) * lin X Wv bv n j v

/-- The kernel's entry: Q (Kᵀ V), with Kᵀ V accumulated from zero over the two halves of the rows. -/
def attnKer (X : SX.Idx → EReal) (Wq : SW.Idx → EReal) (bq : SB.Idx → EReal) (Wk : SW.Idx → EReal) (bk : SB.Idx → EReal)
    (Wv : SW.Idx → EReal) (bv : SB.Idx → EReal) (n : Fin 4) (i : Fin 4096) (v : Fin 128) : EReal :=
  ∑ a : Fin 128, lin X Wq bq n i a *
    (((0 : EReal) + ∑ r : Fin 2048, lin X Wk bk n (lo r) a * lin X Wv bv n (lo r) v)
      + ∑ r : Fin 2048, lin X Wk bk n (hi r) a * lin X Wv bv n (hi r) v)

end Cert.Attn

end
-- ==== Proof.KerLayers.lean ====
/-
  The projected block of a grid point is the three linear layers.

  Point t of the 4 × 2 grid is batch t / 2 and half t % 2 of the 4096 rows: row r of its block is row
  2048 · (t % 2) + r of the input.  The block's projection by the fused weight matrix and the fused bias,
      P[r, 128·n + a] = (∑ e, X[t / 2, 2048 · (t % 2) + r, e] · Wₙ[a, e]) + bₙ[a],
  is feature a of linear layer n at that batch and row: its columns 0 … 127 are Q, its columns 128 … 255
  are K and its columns 256 … 383 are V.
-/
import proofs.«172972_j40510131536516_2_alg».proof.Proof.Payloads
import proofs.«172972_j40510131536516_2_alg».proof.Proof.KerPrefix
import proofs.«172972_j40510131536516_2_alg».proof.Proof.KerBlocks
import proofs.«172972_j40510131536516_2_alg».proof.Proof.Spec

noncomputable section

namespace Cert.KernelIdeal.KerValue

open Cert.KernelIdeal Cert.KernelIdeal.Gen Idealize.ShloMosaic Idealize.ShloMosaic.ValueIdx Idealize.ShloMosaic.TcCoe
open scoped BigOperators

/-- The batch of grid point t. -/
def batch (t : Fin cfg0.N) : Fin 4 :=
  ⟨t.val / 2, by have hN : grid0.N = 8 := Gen.N_0; have ht : t.val < grid0.N := t.isLt; omega⟩

/-- Row r of grid point t's half of the 4096 rows. -/
def row (t : Fin cfg0.N) (r : Fin 2048) : Fin 4096 :=
  ⟨2048 * (t.val % 2) + r.val, by have hr := r.isLt; omega⟩

variable (m : (ℓ : Loc nD τ sig) → Buf (Elt Ideal) ℓ) (c : Dev nD) (t : Fin cfg0.N)

/-- Column 128·n + a of the projected block is feature a of linear layer n. -/
theorem block_layer (n : Fin 3) (r : Fin 2048) (a : Fin 128) (col : Fin 384) (hcol : col.val = 128 * n.val + a.val) :
    k0_pay2 (F := Ideal) (Hand.iblk m c 0 t) (Hand.iblk m c 1 t) (Hand.iblk m c 2 t) (ix2 r col)
      = Cert.Attn.lin (m ((c : Thread nD τ).loc main_arg0))
          ((![m ((c : Thread nD τ).loc main_arg1), m ((c : Thread nD τ).loc main_arg3), m ((c : Thread nD τ).loc main_arg5)]
            : Fin 3 → (S128x1024.Idx → EReal)) n)
          ((![m ((c : Thread nD τ).loc main_arg2), m ((c : Thread nD τ).loc main_arg4), m ((c : Thread nD τ).loc main_arg6)]
            : Fin 3 → (S128.Idx → EReal)) n)
          (batch t) (row t r) a := by
  refine (pay2_apply _ _ _ r col).trans ?_
  unfold Cert.Attn.lin
  refine congrArg₂ (· + ·) (Finset.sum_congr rfl fun e _ => ?_) ?_
  · refine congrArg₂ (· * ·) ?_ ?_
    · exact iblk0_apply m c t r e
    · exact (iblk1_apply m c t e col).trans (V_w m c n a e col hcol)
  · exact (iblk2_apply m c t col).trans (V_b m c n a col hcol)

/-- Columns 0 … 127 of the projected block are Q. -/
theorem blockQ (r : Fin 2048) (a : Fin 128) :
    k0_pay2 (F := Ideal) (Hand.iblk m c 0 t) (Hand.iblk m c 1 t) (Hand.iblk m c 2 t) (ix2 r ⟨a.val, by omega⟩)
      = Cert.Attn.lin (m ((c : Thread nD τ).loc main_arg0)) (m ((c : Thread nD τ).loc main_arg1))
          (m ((c : Thread nD τ).loc main_arg2)) (batch t) (row t r) a :=
  block_layer m c t 0 r a _ (by show a.val = 128 * 0 + a.val; omega)

/-- Columns 128 … 255 of the projected block are K. -/
theorem blockK (r : Fin 2048) (a : Fin 128) :
    k0_pay2 (F := Ideal) (Hand.iblk m c 0 t) (Hand.iblk m c 1 t) (Hand.iblk m c 2 t) (ix2 r ⟨128 + a.val, by omega⟩)
      = Cert.Attn.lin (m ((c : Thread nD τ).loc main_arg0)) (m ((c : Thread nD τ).loc main_arg3))
          (m ((c : Thread nD τ).loc main_arg4)) (batch t) (row t r) a :=
  block_layer m c t 1 r a _ (by show 128 + a.val = 128 * 1 + a.val; omega)

/-- Columns 256 … 383 of the projected block are V. -/
theorem blockV (r : Fin 2048) (a : Fin 128) :
    k0_pay2 (F := Ideal) (Hand.iblk m c 0 t) (Hand.iblk m c 1 t) (Hand.iblk m c 2 t) (ix2 r ⟨256 + a.val, by omega⟩)
      = Cert.Attn.lin (m ((c : Thread nD τ).loc main_arg0)) (m ((c : Thread nD τ).loc main_arg5))
          (m ((c : Thread nD τ).loc main_arg6)) (batch t) (row t r) a :=
  block_layer m c t 2 r a _ (by show 256 + a.val = 128 * 2 + a.val; omega)

end Cert.KernelIdeal.KerValue

end
-- ==== Proof.KerOut.lean ====
/-
  The output block an odd grid point leaves is the kernel's formula.

  Point t is batch t / 2 and half t % 2; let t be odd, so the point before it is the first half of the same
  batch.  The 4096-row scratch then holds the first half's 2048 rows of Q in rows 0 … 2047 and the second
  half's in rows 2048 … 4095, so its row i is row i of the batch's Q.  The accumulator holds, at (a, v),
  zero plus ∑ r, K[r, a] · V[r, v] over the first half's rows plus the same sum over the second half's rows.
  The output block is the scratch times the accumulator:
      out[0, i, v] = ∑ a, Q[i, a] · ((0 + ∑ r < 2048, K[r, a] · V[r, v]) + ∑ r < 2048, K[2048 + r, a] · V[2048 + r, v]).
-/
import proofs.«172972_j40510131536516_2_alg».proof.Proof.FrameI.Outs
import proofs.«172972_j40510131536516_2_alg».proof.Proof.Payloads
import proofs.«172972_j40510131536516_2_alg».proof.Proof.KerLayers
import proofs.«172972_j40510131536516_2_alg».proof.Proof.Spec
import Idealize.ShloMosaic.Lib.Pipeline.FrameBody
import Idealize.ShloMosaic.Lib.Pipeline.Value

set_option maxRecDepth 16384

noncomputable section

namespace Cert.KernelIdeal.KerValue

open Cert.KernelIdeal Cert.KernelIdeal.Gen Cert.KernelIdeal.Hand Idealize.ShloMosaic Idealize.ShloMosaic.TcCoe Idealize.ShloMosaic.ValueIdx
open scoped BigOperators

variable (m : (ℓ : Loc nD τ sig) → Buf (Elt Ideal) ℓ) (c : Dev nD) (t : Fin cfg0.N)

/-! ## The 4096-row scratch, half by half -/

/-- Rows 0 … 2047 of the scratch after an odd point are the point before's block of Q: the row is not
    among the rows 2048 … 4095 written last, and it is row r of the rows 0 … 2047 written before. -/
theorem qFull_lo (r : Fin 2048) (a : Fin 128) :
    Hand.qFull (F := Ideal) m c t (ix2 ⟨r.val, by omega⟩ a) = Hand.qAt (F := Ideal) m c (Hand.prev t) (ix2 r a) := by
  unfold Hand.qFull
  have hn : (ix2 ⟨r.val, by omega⟩ a : S4096x128.Idx) ∉ (Hand.pieceHi (Hand.qAt (F := Ideal) m c t)).1.set := by
    rw [Rect.mem_set_unit]
    intro h
    exact absurd (h 0).1 (by show ¬ (2048 ≤ r.val); omega)
  rw [View.canon_cons_of_not_mem (Val := Elt Ideal) (Hand.pieceHi (Hand.qAt (F := Ideal) m c t))
    [Hand.pieceLo (Hand.qAt (F := Ideal) m c (Hand.prev t))] hn]
  have he : (ix2 ⟨r.val, by omega⟩ a : S4096x128.Idx)
      = (Rect.unit (s := S4096x128) ![0, 0] S2048x128.size Hand.inb_lo').emb (ix2 r a) := by
    funext d; apply Fin.ext
    match d with
    | ⟨0, _⟩ => show r.val = 0 + 1 * r.val; omega
    | ⟨1, _⟩ => show a.val = 0 + 1 * a.val; omega
  rw [he]
  exact View.canon_cons_emb (Val := Elt Ideal) (Rect.unit (s := S4096x128) ![0, 0] S2048x128.size Hand.inb_lo')
    (Hand.qAt (F := Ideal) m c (Hand.prev t)) [] (ix2 r a)

/-- Rows 2048 … 4095 of the scratch after an odd point are the point's own block of Q, written last. -/
theorem qFull_hi (r : Fin 2048) (a : Fin 128) :
    Hand.qFull (F := Ideal) m c t (ix2 ⟨2048 + r.val, by omega⟩ a) = Hand.qAt (F := Ideal) m c t (ix2 r a) := by
  unfold Hand.qFull
  have he : (ix2 ⟨2048 + r.val, by omega⟩ a : S4096x128.Idx)
      = (Rect.unit (s := S4096x128) ![2048, 0] S2048x128.size Hand.inb_hi).emb (ix2 r a) := by
    funext d; apply Fin.ext
    match d with
    | ⟨0, _⟩ => show 2048 + r.val = 2048 + 1 * r.val; omega
    | ⟨1, _⟩ => show a.val = 0 + 1 * a.val; omega
  rw [he]
  exact View.canon_cons_emb (Val := Elt Ideal) (Rect.unit (s := S4096x128) ![2048, 0] S2048x128.size Hand.inb_hi)
    (Hand.qAt (F := Ideal) m c t) [Hand.pieceLo (Hand.qAt (F := Ideal) m c (Hand.prev t))] (ix2 r a)

/-! ## An odd point and the point before it -/

/-- The point before an odd point is in the same batch, -/
theorem batch_prev (ho : t.val % 2 = 1) : batch (Hand.prev t) = batch t :=
  Fin.ext (by show (t.val - 1) / 2 = t.val / 2; omega)

/-- its rows are the first half, -/
theorem row_prev (ho : t.val % 2 = 1) (r : Fin 2048) : row (Hand.prev t) r = Cert.Attn.lo r :=
  Fin.ext (by show 2048 * ((t.val - 1) % 2) + r.val = r.val; omega)

/-- and the odd point's own rows are the second half. -/
theorem row_odd (ho : t.val % 2 = 1) (r : Fin 2048) : row t r = Cert.Attn.hi r :=
  Fin.ext (by show 2048 * (t.val % 2) + r.val = 2048 + r.val; omega)

/-! ## The values a point leaves, through the three layers -/

/-- A point's block of Q is the first layer at the point's batch and rows. -/
theorem qAt_apply (r : Fin 2048) (a : Fin 128) :
    Hand.qAt (F := Ideal) m c t (ix2 r a)
      = Cert.Attn.lin (m ((c : Thread nD τ).loc main_arg0)) (m ((c : Thread nD τ).loc main_arg1)) (m ((c : Thread nD τ).loc main_arg2)) (batch t) (row t r) a := by
  unfold Hand.qAt
  rw [pay4_apply]
  exact blockQ m c t r a

/-- After an odd point, row i of the scratch is row i of the batch's Q. -/
theorem qFull_apply (ho : t.val % 2 = 1) (i : Fin 4096) (a : Fin 128) :
    Hand.qFull (F := Ideal) m c t (ix2 i a)
      = Cert.Attn.lin (m ((c : Thread nD τ).loc main_arg0)) (m ((c : Thread nD τ).loc main_arg1)) (m ((c : Thread nD τ).loc main_arg2)) (batch t) i a := by
  by_cases hi : i.val < 2048
  · refine (qFull_lo m c t ⟨i.val, hi⟩ a).trans ?_
    rw [qAt_apply, batch_prev t ho, row_prev t ho]
    rfl
  · have hi' : i.val - 2048 < 2048 := by have := i.isLt; omega
    have ei : i = ⟨2048 + (⟨i.val - 2048, hi'⟩ : Fin 2048).val, by have := i.isLt; show 2048 + (i.val - 2048) < 4096; omega⟩ :=
      Fin.ext (by show i.val = 2048 + (i.val - 2048); omega)
    rw [ei]
    refine (qFull_hi m c t ⟨i.val - 2048, hi'⟩ a).trans ?_
    rw [qAt_apply, row_odd t ho]
    rfl

/-- After the first half the accumulator is zero plus Kᵀ V of the point's rows. -/
theorem accA_apply (a v : Fin 128) :
    Hand.accA (F := Ideal) m c t (ix2 a v)
      = (0 : EReal) + ∑ r : Fin 2048,
          Cert.Attn.lin (m ((c : Thread nD τ).loc main_arg0)) (m ((c : Thread nD τ).loc main_arg3)) (m ((c : Thread nD τ).loc main_arg4)) (batch t) (row t r) a
          * Cert.Attn.lin (m ((c : Thread nD τ).loc main_arg0)) (m ((c : Thread nD τ).loc main_arg5)) (m ((c : Thread nD τ).loc main_arg6)) (batch t) (row t r) v := by
  unfold Hand.accA
  rw [pay3_apply, pay1_apply]
  congr 1
  refine Finset.sum_congr rfl fun r _ => ?_
  rw [blockK m c t r a, blockV m c t r v]

/-- After an odd point the accumulator is zero plus Kᵀ V of the first half's rows, plus Kᵀ V of the
    second half's rows. -/
theorem accB_apply (ho : t.val % 2 = 1) (a v : Fin 128) :
    Hand.accB (F := Ideal) m c t (ix2 a v)
      = ((0 : EReal) + ∑ r : Fin 2048,
          Cert.Attn.lin (m ((c : Thread nD τ).loc main_arg0)) (m ((c : Thread nD τ).loc main_arg3)) (m ((c : Thread nD τ).loc main_arg4)) (batch t) (Cert.Attn.lo r) a
          * Cert.Attn.lin (m ((c : Thread nD τ).loc main_arg0)) (m ((c : Thread nD τ).loc main_arg5)) (m ((c : Thread nD τ).loc main_arg6)) (batch t) (Cert.Attn.lo r) v)
        + ∑ r : Fin 2048,
          Cert.Attn.lin (m ((c : Thread nD τ).loc main_arg0)) (m ((c : Thread nD τ).loc main_arg3)) (m ((c : Thread nD τ).loc main_arg4)) (batch t) (Cert.Attn.hi r) a
          * Cert.Attn.lin (m ((c : Thread nD τ).loc main_arg0)) (m ((c : Thread nD τ).loc main_arg5)) (m ((c : Thread nD τ).loc main_arg6)) (batch t) (Cert.Attn.hi r) v := by
  unfold Hand.accB
  rw [pay3_apply, accA_apply, batch_prev t ho]
  congr 1
  · congr 1
    refine Finset.sum_congr rfl fun r _ => ?_
    rw [row_prev t ho]
  · refine Finset.sum_congr rfl fun r _ => ?_
    rw [blockK m c t r a, blockV m c t r v, row_odd t ho]

/-! ## The output block of an odd point -/

/-- The output block of an odd point is Q (Kᵀ V) with Kᵀ V accumulated from zero over the two halves. -/
theorem outB_apply (ho : t.val % 2 = 1) (i : Fin 4096) (v : Fin 128) :
    Hand.outB (F := Ideal) m c t (ix3 0 i v)
      = Cert.Attn.attnKer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (batch t) i v := by
  unfold Hand.outB
  rw [pay5_apply]
  unfold Cert.Attn.attnKer
  refine Finset.sum_congr rfl fun a _ => ?_
  rw [qFull_apply m c t ho i a, accB_apply m c t ho a v]

end Cert.KernelIdeal.KerValue

end
-- ==== Proof.KerCover.lean ====
/-
  The output window's blocks.

  The output array is [4, 4096, 128] and the window's block is [1, 4096, 128] at block index (t / 2, 0, 0):
  point t's block is the whole batch t / 2, so element (0, i, v) of the block is element (t / 2, i, v) of
  the array.  The block is written back exactly at the odd points, and batch n is the block of point
  2·n + 1: the blocks written back cover the array.
-/
import proofs.«172972_j40510131536516_2_alg».proof.Proof.Gen.KernelIdeal.Points
import proofs.«172972_j40510131536516_2_alg».proof.Proof.Gen.KernelIdeal.Launch
import Idealize.ShloMosaic.Lib.Pipeline.Value
import Idealize.ShloMosaic.Lib.ValueIdx

set_option maxRecDepth 16384

noncomputable section

namespace Cert.KernelIdeal.KerValue

open Cert.KernelIdeal Cert.KernelIdeal.Gen Idealize.ShloMosaic Idealize.ShloMosaic.TcCoe Idealize.ShloMosaic.ValueIdx
open Idealize.SL.Sem

variable {F : FTy → Type} [FloatOps F]

/-- The output window's block index at point t is (t / 2, 0, 0), decided over the eight points. -/
theorem idx3 : ∀ t : Fin cfg0.N, win0_3.index t (0 : Fin 3) = t.val / 2 ∧ win0_3.index t (1 : Fin 3) = 0 ∧ win0_3.index t (2 : Fin 3) = 0 :=
  (by decide +kernel : ∀ t : Fin grid0.N, _)

/-- Element (0, i, v) of point t's block of a whole-array function is the function at (t / 2, i, v). -/
theorem out_block_read (G : S4x4096x128.Idx → Elt F .f32) (t : Fin cfg0.N) (i : Fin 4096) (v : Fin 128) :
    ((cfg0.win 3).blk t).view.read (Elt F) G (ix3 0 i v)
      = G (ix3 ⟨t.val / 2, by have hN : grid0.N = 8 := Gen.N_0; have ht : t.val < grid0.N := t.isLt; omega⟩ i v) := by
  obtain ⟨e0, e1, e2⟩ := idx3 t
  rw [View.read_apply]
  show G _ = G _
  congr 1
  funext a
  apply Fin.ext
  match a with
  | ⟨0, _⟩ => show win0_3.index t (0 : Fin 3) * 1 + 1 * 0 = t.val / 2; omega
  | ⟨1, _⟩ => show win0_3.index t (1 : Fin 3) * 4096 + 1 * i.val = i.val; omega
  | ⟨2, _⟩ => show win0_3.index t (2 : Fin 3) * 128 + 1 * v.val = v.val; omega

/-- An index of the array is in point t's block iff each coordinate is in the block's range on its axis. -/
theorem mem_blk3 (t : Fin cfg0.N) (i : S4x4096x128.Idx) :
    i ∈ ((cfg0.win 3).blk t).view.set ↔ ∀ a : Fin 3, win0_3.index t a * S1x4096x128.size a ≤ (i a).val
      ∧ (i a).val < win0_3.index t a * S1x4096x128.size a + S1x4096x128.size a := by
  show i ∈ ((View.whole main_v7).slice (win0_3.rect t)).set ↔ _
  rw [View.set_slice_whole, Rect.mem_set_unit]
  exact Iff.rfl

/-- Every index of the array is in the block of a point that writes its block back: batch n is point 2·n + 1's. -/
theorem out_cover_idx (i : S4x4096x128.Idx) :
    ∃ t : Fin cfg0.N, (cfg0.win 3).flush t = true ∧ i ∈ ((cfg0.win 3).blk t).view.set := by
  have hN : grid0.N = 8 := Gen.N_0
  have hi0 : (i 0).val < 4 := (i 0).isLt
  have hi1 : (i 1).val < 4096 := (i 1).isLt
  have hi2 : (i 2).val < 128 := (i 2).isLt
  have ht : 2 * (i 0).val + 1 < grid0.N := by omega
  obtain ⟨e0, e1, e2⟩ := idx3 ⟨2 * (i 0).val + 1, ht⟩
  refine ⟨⟨2 * (i 0).val + 1, ht⟩, (flush0_3 _).2 ?_, ?_⟩
  · show (2 * (i 0).val + 1) % 2 = 1
    omega
  · rw [mem_blk3]
    have e0' : win0_3.index ⟨2 * (i 0).val + 1, ht⟩ (0 : Fin 3) = (2 * (i 0).val + 1) / 2 := e0
    intro a
    match a with
    | ⟨0, _⟩ =>
      show win0_3.index ⟨2 * (i 0).val + 1, ht⟩ (0 : Fin 3) * 1 ≤ (i 0).val
        ∧ (i 0).val < win0_3.index ⟨2 * (i 0).val + 1, ht⟩ (0 : Fin 3) * 1 + 1
      omega
    | ⟨1, _⟩ =>
      show win0_3.index ⟨2 * (i 0).val + 1, ht⟩ (1 : Fin 3) * 4096 ≤ (i 1).val
        ∧ (i 1).val < win0_3.index ⟨2 * (i 0).val + 1, ht⟩ (1 : Fin 3) * 4096 + 4096
      omega
    | ⟨2, _⟩ =>
      show win0_3.index ⟨2 * (i 0).val + 1, ht⟩ (2 : Fin 3) * 128 ≤ (i 2).val
        ∧ (i 2).val < win0_3.index ⟨2 * (i 0).val + 1, ht⟩ (2 : Fin 3) * 128 + 128
      omega

/-- The same, with the index typed as an index of the window's array on core c. -/
theorem out_cover (c : Dev nD) : ∀ i : ((cfg0.win 3).arr.view.loc (c.tc : Thread nD τ)).2.ty.Idx,
    ∃ t : Fin cfg0.N, (cfg0.win 3).flush t = true ∧ i ∈ ((cfg0.win 3).blk t).view.set :=
  fun i => out_cover_idx i

end Cert.KernelIdeal.KerValue

end
-- ==== Proof.LibChebAlgebra.lean ====
/-
  One propagation step of the normalised graph Laplacian, computed in two ways, over the extended reals.

  A graph has N nodes and E edges. Edge e carries a source word and a destination word, read as
  integers σs e and σd e, and the row numbers gs e, gd e of the rows that are fetched for it. With the
  inverse square-root degrees dinv and the node features h, both real-valued, one side gathers
  dinv (gs e) · h (gs e) along every edge that lands on node n, subtracts (number of self-loops at n)
  · dinv n · h n, and multiplies the difference by -dinv n; the other side sums, over the edges that
  land on n, the products (-dinv (gs e)) · [e is no self-loop] · dinv (gd e) · h (gs e). A self-loop at n
  contributes exactly dinv n · h n to the gathered sum, and the self-loops at n are exactly the edges the
  count counts, so the difference is the sum over the edges that are no self-loops; distributing the
  factor -dinv n over that sum gives the other side. Distributing a factor over a sum is valid on the
  extended reals only when the entries are real numbers, so every statement here carries that
  hypothesis, and the file also collects the closure rules "a real combination of reals is real" that
  discharge it: sums, products, differences, maxima, quotients by a non-zero real, inverse square roots
  of positive reals, the inverse square-root degree, and a layer-normalised row. Last, a sum over 3·d
  indices splits into three sums over d indices (a contraction against three stacked blocks).
-/
import Mathlib.Data.EReal.Operations
import Mathlib.Algebra.BigOperators.Intervals
import Mathlib.Algebra.BigOperators.Fin
import Mathlib.Tactic.Ring
import Idealize.ShloMosaic.PureOps.Ideal

namespace Cert.Lib.Cheb

open Finset
open Idealize.ShloMosaic

/-- An extended real is REAL when it is the image of a real number. -/
def IsReal (x : EReal) : Prop := ∃ r : ℝ, x = (r : EReal)

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- The image of a real chosen by a condition is the image chosen by the same condition. -/
theorem coe_ite (p : Prop) [Decidable p] (a b : ℝ) :
    ((if p then a else b : ℝ) : EReal) = if p then (a : EReal) else (b : EReal) := by
  split <;> rfl

/-- The two forms of the propagation step agree over the reals: termwise, a self-loop landing on n
    cancels against its share of the count, and every other edge landing on n contributes
    -dinv n · dinv (gs e) · h (gs e). -/
theorem prop_eq_real {N E D : ℕ} (σs σd : Fin E → ℤ) (gs gd : Fin E → Fin N) (same : Fin E → Prop)
    [DecidablePred same]
    (hsame : ∀ e, same e → σs e = σd e ∧ gs e = gd e)
    (hd : ∀ e (n : Fin N), σd e = (n.val : ℤ) → gd e = n)
    (d : Fin N → ℝ) (H : Fin N → Fin D → ℝ) (n : Fin N) (j : Fin D) :
    ((-1 : ℝ) * d n) * ((0 + ∑ e : Fin E, if σd e = (n.val : ℤ) then d (gs e) * H (gs e) j else 0)
        - (0 + ∑ e : Fin E, if σs e = (n.val : ℤ) then (if same e then (1 : ℝ) else 0) else 0)
          * (d n * H n j))
      = (0 + ∑ e : Fin E, if σd e = (n.val : ℤ) then
            ((((-1 : ℝ) * d (gs e)) * (if same e then (0 : ℝ) else 1)) * d (gd e)) * H (gs e) j else 0)
        + 0 * H n j := by
  rw [zero_add, zero_add, zero_add, zero_mul, add_zero, Finset.sum_mul, ← Finset.sum_sub_distrib,
    Finset.mul_sum]
  refine Finset.sum_congr rfl fun e _ => ?_
  by_cases h2 : same e
  · obtain ⟨hσ, hg⟩ := hsame e h2
    by_cases h1 : σd e = (n.val : ℤ)
    · have hgd : gd e = n := hd e n h1
      have hgs : gs e = n := hg.trans hgd
      rw [hσ, if_pos h1, if_pos h1, if_pos h2, if_pos h1, if_pos h2, hgs]
      ring
    · rw [hσ, if_neg h1, if_neg h1, if_neg h1]
      ring
  · by_cases h1 : σd e = (n.val : ℤ)
    · have hgd : gd e = n := hd e n h1
      rw [if_pos h1, if_neg h2, if_pos h1, if_neg h2, hgd, ite_self]
      ring
    · rw [if_neg h1, if_neg h2, if_neg h1, ite_self]
      ring

/-- The kernel-side form of the propagation step is the image of the same expression over the reals. -/
theorem lhs_coe {N E D : ℕ} (σs σd : Fin E → ℤ) (gs : Fin E → Fin N) (same : Fin E → Prop)
    [DecidablePred same] (d : Fin N → ℝ) (H : Fin N → Fin D → ℝ) (n : Fin N) (j : Fin D) :
    ((-1 : EReal) * (d n : EReal)) * ((0 + ∑ e : Fin E, if σd e = (n.val : ℤ) then
            (d (gs e) : EReal) * (H (gs e) j : EReal) else 0)
        - (0 + ∑ e : Fin E, if σs e = (n.val : ℤ) then (if same e then (1 : EReal) else 0) else 0)
          * ((d n : EReal) * (H n j : EReal)))
      = ((((-1 : ℝ) * d n) * ((0 + ∑ e : Fin E, if σd e = (n.val : ℤ) then d (gs e) * H (gs e) j else 0)
        - (0 + ∑ e : Fin E, if σs e = (n.val : ℤ) then (if same e then (1 : ℝ) else 0) else 0)
          * (d n * H n j)) : ℝ) : EReal) := by
  simp only [coe_sum, coe_ite, EReal.coe_add, EReal.coe_sub, EReal.coe_mul, EReal.coe_neg,
    EReal.coe_zero, EReal.coe_one]

/-- The reference-side form of the propagation step is the image of the same expression over the reals. -/
theorem rhs_coe {N E D : ℕ} (σd : Fin E → ℤ) (gs gd : Fin E → Fin N) (same : Fin E → Prop)
    [DecidablePred same] (d : Fin N → ℝ) (H : Fin N → Fin D → ℝ) (n : Fin N) (j : Fin D) :
    (0 + ∑ e : Fin E, if σd e = (n.val : ℤ) then
          ((((-1 : EReal) * (d (gs e) : EReal)) * (if same e then (0 : EReal) else 1)) * (d (gd e) : EReal))
            * (H (gs e) j : EReal) else 0)
        + 0 * (H n j : EReal)
      = (((0 + ∑ e : Fin E, if σd e = (n.val : ℤ) then
            ((((-1 : ℝ) * d (gs e)) * (if same e then (0 : ℝ) else 1)) * d (gd e)) * H (gs e) j else 0)
        + 0 * H n j : ℝ) : EReal) := by
  simp only [coe_sum, coe_ite, EReal.coe_add, EReal.coe_mul, EReal.coe_neg, EReal.coe_zero,
    EReal.coe_one]

/-- C1. One propagation step of the normalised Laplacian: the gathered sum minus the self-loop count
    times the node's own term, scaled by -dinv n, equals the sum over the edges landing on n of
    (-dinv (gs e)) · [no self-loop] · dinv (gd e) · h (gs e). The entries are real, so both sides are
    images of real expressions, which agree termwise. -/
theorem prop_eq {N E D : ℕ} (σs σd : Fin E → ℤ) (gs gd : Fin E → Fin N) (same : Fin E → Prop)
    [DecidablePred same]
    (hsame : ∀ e, same e → σs e = σd e ∧ gs e = gd e)
    (hd : ∀ e (n : Fin N), σd e = (n.val : ℤ) → gd e = n)
    (dinv : Fin N → EReal) (hdinv : ∀ n, IsReal (dinv n))
    (h : Fin N → Fin D → EReal) (hh : ∀ n j, IsReal (h n j)) (n : Fin N) (j : Fin D) :
    ((-1 : EReal) * dinv n) * ((0 + ∑ e : Fin E, if σd e = (n.val : ℤ) then dinv (gs e) * h (gs e) j else 0)
        - (0 + ∑ e : Fin E, if σs e = (n.val : ℤ) then (if same e then (1 : EReal) else 0) else 0)
          * (dinv n * h n j))
      = (0 + ∑ e : Fin E, if σd e = (n.val : ℤ) then
            ((((-1 : EReal) * dinv (gs e)) * (if same e then (0 : EReal) else 1)) * dinv (gd e))
              * h (gs e) j else 0)
        + 0 * h n j := by
  choose d hd' using hdinv
  choose H hH using hh
  obtain rfl : dinv = fun n => (d n : EReal) := funext hd'
  obtain rfl : h = fun n j => (H n j : EReal) := funext fun n => funext fun j => hH n j
  show ((-1 : EReal) * (d n : EReal)) * ((0 + ∑ e : Fin E, if σd e = (n.val : ℤ) then
            (d (gs e) : EReal) * (H (gs e) j : EReal) else 0)
        - (0 + ∑ e : Fin E, if σs e = (n.val : ℤ) then (if same e then (1 : EReal) else 0) else 0)
          * ((d n : EReal) * (H n j : EReal)))
      = (0 + ∑ e : Fin E, if σd e = (n.val : ℤ) then
          ((((-1 : EReal) * (d (gs e) : EReal)) * (if same e then (0 : EReal) else 1)) * (d (gd e) : EReal))
            * (H (gs e) j : EReal) else 0)
        + 0 * (H n j : EReal)
  rw [lhs_coe, rhs_coe, prop_eq_real σs σd gs gd same hsame hd d H n j]

/-- C1'. The kernel-side form of the propagation step is real when its entries are. -/
theorem prop_real {N E D : ℕ} (σs σd : Fin E → ℤ) (gs : Fin E → Fin N) (same : Fin E → Prop)
    [DecidablePred same]
    (dinv : Fin N → EReal) (hdinv : ∀ n, IsReal (dinv n))
    (h : Fin N → Fin D → EReal) (hh : ∀ n j, IsReal (h n j)) (n : Fin N) (j : Fin D) :
    IsReal (((-1 : EReal) * dinv n) * ((0 + ∑ e : Fin E, if σd e = (n.val : ℤ) then dinv (gs e) * h (gs e) j else 0)
        - (0 + ∑ e : Fin E, if σs e = (n.val : ℤ) then (if same e then (1 : EReal) else 0) else 0)
          * (dinv n * h n j))) := by
  choose d hd' using hdinv
  choose H hH using hh
  obtain rfl : dinv = fun n => (d n : EReal) := funext hd'
  obtain rfl : h = fun n j => (H n j : EReal) := funext fun n => funext fun j => hH n j
  exact ⟨_, lhs_coe σs σd gs same d H n j⟩

end Cert.Lib.Cheb
-- ==== Proof.LibChebReal.lean ====
/-
  Which extended reals stay real, and how a stacked contraction splits.

  The extended reals are the reals with two infinities added; a value is REAL when it is the image of a
  real number. Sums, differences, products, negations, maxima and conditional choices of reals are
  real, and so is a finite sum of reals. A quotient by a non-zero real is the product with its
  reciprocal, hence real; the inverse square root of a positive real r is 1/√r, hence real. From these:
  the inverse square-root degree "rsqrt (max deg c) when deg > 0, else 0" is real for a real degree and
  a positive real floor c; the mean of a real row over a non-zero real count is real; its variance over
  a positive count is real and non-negative (a sum of squares of reals times a positive reciprocal), so
  adding a positive ε gives a positive real, whose inverse square root is real; therefore every entry
  of the layer-normalised, scaled, shifted and rectified row is real. Last, a sum over the first 3·d
  naturals is the sum of three sums over d naturals (the contraction of a row against three blocks
  stacked on top of each other), also in the form indexed by Fin.
-/
import Mathlib.Data.EReal.Operations
import Mathlib.Algebra.BigOperators.Intervals
import Mathlib.Algebra.BigOperators.Fin
import Mathlib.Algebra.Order.BigOperators.Group.Finset
import Mathlib.Tactic.Ring
import Idealize.ShloMosaic.PureOps.Ideal
import proofs.«172972_j40510131536516_2_alg».proof.Proof.LibChebAlgebra

namespace Cert.Lib.Cheb

open Finset
open Idealize.ShloMosaic

/-! ## C2: closure of the reals under the operations -/

/-- The image of a real number is real. -/
protected theorem IsReal.coe (r : ℝ) : IsReal (r : EReal) := ⟨r, rfl⟩

/-- Zero is real. -/
protected theorem IsReal.zero : IsReal (0 : EReal) := ⟨0, EReal.coe_zero.symm⟩

/-- One is real. -/
protected theorem IsReal.one : IsReal (1 : EReal) := ⟨1, EReal.coe_one.symm⟩

/-- A sum of two reals is real. -/
protected theorem IsReal.add {x y : EReal} (hx : IsReal x) (hy : IsReal y) : IsReal (x + y) := by
  obtain ⟨r, rfl⟩ := hx; obtain ⟨q, rfl⟩ := hy; exact ⟨r + q, (EReal.coe_add r q).symm⟩

/-- A difference of two reals is real. -/
protected theorem IsReal.sub {x y : EReal} (hx : IsReal x) (hy : IsReal y) : IsReal (x - y) := by
  obtain ⟨r, rfl⟩ := hx; obtain ⟨q, rfl⟩ := hy; exact ⟨r - q, (EReal.coe_sub r q).symm⟩

/-- A product of two reals is real. -/
protected theorem IsReal.mul {x y : EReal} (hx : IsReal x) (hy : IsReal y) : IsReal (x * y) := by
  obtain ⟨r, rfl⟩ := hx; obtain ⟨q, rfl⟩ := hy; exact ⟨r * q, (EReal.coe_mul r q).symm⟩

/-- The negative of a real is real. -/
protected theorem IsReal.neg {x : EReal} (hx : IsReal x) : IsReal (-x) := by
  obtain ⟨r, rfl⟩ := hx; exact ⟨-r, (EReal.coe_neg r).symm⟩

/-- The larger of two reals is real. -/
protected theorem IsReal.max {x y : EReal} (hx : IsReal x) (hy : IsReal y) : IsReal (max x y) := by
  obtain ⟨r, rfl⟩ := hx; obtain ⟨q, rfl⟩ := hy
  exact ⟨max r q, (EReal.coe_strictMono.monotone.map_max).symm⟩

/-- A choice between two reals is real. -/
protected theorem IsReal.ite {p : Prop} [Decidable p] {x y : EReal} (hx : IsReal x) (hy : IsReal y) :
    IsReal (if p then x else y) := by
  split
  · exact hx
  · exact hy

/-- A finite sum of reals is real. -/
protected theorem IsReal.sum {ι : Type*} (s : Finset ι) (f : ι → EReal) (hf : ∀ i ∈ s, IsReal (f i)) :
    IsReal (∑ i ∈ s, f i) := by
  classical
  induction s using Finset.induction_on with
  | empty => exact ⟨0, by rw [Finset.sum_empty, EReal.coe_zero]⟩
  | insert a s ha ih =>
    rw [Finset.sum_insert ha]
    exact (hf a (Finset.mem_insert_self a s)).add (ih fun i hi => hf i (Finset.mem_insert_of_mem hi))

/-- A sum of reals over a whole finite index type is real. -/
protected theorem IsReal.sum_univ {ι : Type*} [Fintype ι] (f : ι → EReal) (hf : ∀ i, IsReal (f i)) :
    IsReal (∑ i, f i) :=
  IsReal.sum _ _ fun i _ => hf i

/-- Zero plus a sum of reals over a whole finite index type is real. -/
protected theorem IsReal.zero_add_sum {ι : Type*} [Fintype ι] (f : ι → EReal) (hf : ∀ i, IsReal (f i)) :
    IsReal (0 + ∑ i, f i) :=
  IsReal.zero.add (IsReal.sum_univ f hf)

/-- Zero plus the sum of the selected entries (the others replaced by zero) is real when the selected
    entries are. -/
protected theorem IsReal.zero_add_sum_ite {ι : Type*} [Fintype ι] (p : ι → Prop) [DecidablePred p]
    (f : ι → EReal) (hf : ∀ i, p i → IsReal (f i)) :
    IsReal (0 + ∑ i, if p i then f i else 0) :=
  IsReal.zero.add (IsReal.sum_univ _ fun i => by
    by_cases hp : p i
    · rw [if_pos hp]; exact hf i hp
    · rw [if_neg hp]; exact IsReal.zero)

/-- The quotient of a real by a non-zero real is real: it is the product with the reciprocal. -/
protected theorem IsReal.div {x y : EReal} (hx : IsReal x) (hy : IsReal y) (hy0 : y ≠ 0) :
    IsReal (Ideal.div x y) := by
  obtain ⟨r, rfl⟩ := hx; obtain ⟨q, rfl⟩ := hy
  have hq : q ≠ 0 := fun h => hy0 (by rw [h, EReal.coe_zero])
  exact ⟨r * (1 / q), by rw [Ideal.div_coe hq, EReal.coe_mul]⟩

/-- The inverse square root of a positive real r is the real 1/√r. -/
protected theorem IsReal.rsqrt {x : EReal} (hx : IsReal x) (hpos : 0 < x) : IsReal (Ideal.rsqrt x) := by
  obtain ⟨r, rfl⟩ := hx
  have hr : 0 < r := EReal.coe_pos.mp hpos
  exact ⟨(Real.sqrt r)⁻¹, by rw [Ideal.rsqrt_coe, if_neg (not_lt.mpr hr.le), if_neg hr.ne']⟩

/-! ## C3: the inverse square-root degree -/

/-- C3. For a real degree and a positive real floor c, "rsqrt (max deg c) when deg > 0, else 0" is
    real: max deg c ≥ c > 0. -/
theorem dinv_real (deg c : EReal) (hdeg : IsReal deg) (hc : IsReal c) (hcpos : 0 < c) :
    IsReal (if 0 < deg then Ideal.rsqrt (max deg c) else 0) :=
  IsReal.ite (IsReal.rsqrt (hdeg.max hc) (lt_max_of_lt_right hcpos)) IsReal.zero

/-! ## C4: a layer-normalised row -/

/-- The mean of a real row over a non-zero real count is real. -/
theorem mean_real {D : ℕ} (a : Fin D → EReal) (ha : ∀ k, IsReal (a k)) (dn : EReal) (hdn : IsReal dn)
    (hdn0 : dn ≠ 0) : IsReal (Ideal.div (0 + ∑ k, a k) dn) :=
  IsReal.div (IsReal.zero_add_sum a ha) hdn hdn0

/-- The mean squared deviation of a real row from a real centre, over a positive real count, is a
    non-negative real: a sum of squares times a positive reciprocal. -/
theorem var_real_nonneg {D : ℕ} (a : Fin D → EReal) (ha : ∀ k, IsReal (a k)) (mu dn : EReal)
    (hmu : IsReal mu) (hdn : IsReal dn) (hdnpos : 0 < dn) :
    ∃ v : ℝ, 0 ≤ v ∧ Ideal.div (0 + ∑ k, (a k - mu) * (a k - mu)) dn = (v : EReal) := by
  choose a' ha' using ha
  obtain ⟨m, rfl⟩ := hmu
  obtain ⟨q, rfl⟩ := hdn
  have hq : 0 < q := EReal.coe_pos.mp hdnpos
  have hsum : (0 + ∑ k, (a k - (m : EReal)) * (a k - (m : EReal)))
      = ((∑ k, (a' k - m) * (a' k - m) : ℝ) : EReal) := by
    rw [zero_add, coe_sum]
    exact Finset.sum_congr rfl fun k _ => by rw [ha' k, ← EReal.coe_sub, ← EReal.coe_mul]
  refine ⟨(∑ k, (a' k - m) * (a' k - m)) * (1 / q), ?_, ?_⟩
  · exact mul_nonneg (Finset.sum_nonneg fun k _ => mul_self_nonneg _) (one_div_pos.mpr hq).le
  · rw [hsum, Ideal.div_coe hq.ne', EReal.coe_mul]

/-- The inverse square root of "variance plus a positive real ε" is real, the variance being the mean
    squared deviation of a real row from a real centre over a positive real count. -/
theorem rsqrt_var_real {D : ℕ} (a : Fin D → EReal) (ha : ∀ k, IsReal (a k)) (mu dn eps : EReal)
    (hmu : IsReal mu) (hdn : IsReal dn) (hdnpos : 0 < dn) (heps : IsReal eps) (hepspos : 0 < eps) :
    IsReal (Ideal.rsqrt (Ideal.div (0 + ∑ k, (a k - mu) * (a k - mu)) dn + eps)) := by
  obtain ⟨v, hv0, hv⟩ := var_real_nonneg a ha mu dn hmu hdn hdnpos
  obtain ⟨ε, rfl⟩ := heps
  have hε : 0 < ε := EReal.coe_pos.mp hepspos
  rw [hv, ← EReal.coe_add]
  exact IsReal.rsqrt (IsReal.coe _) (EReal.coe_pos.mpr (add_pos_of_nonneg_of_pos hv0 hε))

/-- C4. Every entry of a layer-normalised row is real: with mu the mean and var the mean squared
    deviation of the real row a over the positive real count dn, and a positive real ε,
    max ((a j - mu) · rsqrt (var + ε) · g j + bt j) 0 is real for real scale g and shift bt. The mean
    and the variance enter as named values together with their defining equations. -/
theorem layernorm_real {D : ℕ} (a g bt : Fin D → EReal) (ha : ∀ k, IsReal (a k))
    (hg : ∀ k, IsReal (g k)) (hbt : ∀ k, IsReal (bt k))
    (dn eps : EReal) (hdn : IsReal dn) (hdnpos : 0 < dn) (heps : IsReal eps) (hepspos : 0 < eps)
    (mu var : EReal) (hmu : mu = Ideal.div (0 + ∑ k, a k) dn)
    (hvar : var = Ideal.div (0 + ∑ k, (a k - mu) * (a k - mu)) dn) (j : Fin D) :
    IsReal (max (((a j - mu) * Ideal.rsqrt (var + eps)) * g j + bt j) 0) := by
  have hmuR : IsReal mu := by rw [hmu]; exact mean_real a ha dn hdn hdnpos.ne'
  have hrs : IsReal (Ideal.rsqrt (var + eps)) := by
    rw [hvar]; exact rsqrt_var_real a ha mu dn eps hmuR hdn hdnpos heps hepspos
  exact (((((ha j).sub hmuR).mul hrs).mul (hg j)).add (hbt j)).max IsReal.zero

/-- C4, with the mean and the variance written out. -/
theorem layernorm_real' {D : ℕ} (a g bt : Fin D → EReal) (ha : ∀ k, IsReal (a k))
    (hg : ∀ k, IsReal (g k)) (hbt : ∀ k, IsReal (bt k))
    (dn eps : EReal) (hdn : IsReal dn) (hdnpos : 0 < dn) (heps : IsReal eps) (hepspos : 0 < eps)
    (j : Fin D) :
    IsReal (max (((a j - Ideal.div (0 + ∑ k, a k) dn)
        * Ideal.rsqrt (Ideal.div (0 + ∑ k, (a k - Ideal.div (0 + ∑ k, a k) dn)
            * (a k - Ideal.div (0 + ∑ k, a k) dn)) dn + eps)) * g j + bt j) 0) :=
  layernorm_real a g bt ha hg hbt dn eps hdn hdnpos heps hepspos _ _ rfl rfl j

/-! ## C5: a contraction against three stacked blocks -/

/-- C5. A sum over the first 3·d naturals is the sum over the first d, plus the sum over the next d,
    plus the sum over the last d. -/
theorem sum_three {M : Type*} [AddCommMonoid M] (d : ℕ) (f : ℕ → M) :
    ∑ k ∈ Finset.range (3 * d), f k
      = (∑ k ∈ Finset.range d, f k + ∑ k ∈ Finset.range d, f (d + k))
        + ∑ k ∈ Finset.range d, f (2 * d + k) := by
  have h3 : 3 * d = d + d + d := by ring
  rw [h3, Finset.sum_range_add, Finset.sum_range_add, two_mul]

/-- C5 indexed by Fin: a sum over Fin (3·d) of a function of the underlying natural splits into three
    sums over Fin d. -/
theorem sum_three_fin {M : Type*} [AddCommMonoid M] (d : ℕ) (f : ℕ → M) :
    ∑ k : Fin (3 * d), f k.val
      = (∑ k : Fin d, f k.val + ∑ k : Fin d, f (d + k.val)) + ∑ k : Fin d, f (2 * d + k.val) := by
  have h1 : ∑ k : Fin (3 * d), f k.val = ∑ k ∈ Finset.range (3 * d), f k :=
    Fin.sum_univ_eq_sum_range f (3 * d)
  have h2 : ∑ k : Fin d, f k.val = ∑ k ∈ Finset.range d, f k := Fin.sum_univ_eq_sum_range f d
  have h3 : ∑ k : Fin d, f (d + k.val) = ∑ k ∈ Finset.range d, f (d + k) :=
    Fin.sum_univ_eq_sum_range (fun k => f (d + k)) d
  have h4 : ∑ k : Fin d, f (2 * d + k.val) = ∑ k ∈ Finset.range d, f (2 * d + k) :=
    Fin.sum_univ_eq_sum_range (fun k => f (2 * d + k)) d
  rw [h1, h2, h3, h4]
  exact sum_three d f

end Cert.Lib.Cheb
-- ==== Proof.LibTripleProduct.lean ====
/-
  The product of three matrices, bracketed in two ways, over the extended reals.

  For a row q of length d, a matrix K with m rows of length d and a column V of length m, the number
  (q Kᵀ) V = ∑ j, (∑ k, q k · K j k) · V j equals q (Kᵀ V) = ∑ a, q a · (∑ j, K j a · V j): both are the
  triple sum ∑ j, ∑ a, q a · K j a · V j, by distributivity and exchanging the order of summation. On
  the extended reals distributivity holds when every entry is a real number, so the statement carries
  that hypothesis: both sides are then images of the corresponding real expressions. The inner sum over
  the m = h + h rows may also be accumulated from zero over the two halves r and h + r (r < h) of the
  rows; a sum over Fin (h + h) is the sum over the first half plus the sum over the second half.
-/
import Mathlib
import proofs.«172972_j40510131536516_2_alg».proof.Proof.LibChebReal

namespace Cert.Lib.TripleProduct

open Finset
open Cert.Lib.Cheb

/-- Over the reals, (q Kᵀ) V = q (Kᵀ V): both are the triple sum ∑ a, ∑ j, q a · K j a · V j. -/
theorem assoc_real {m d : ℕ} (q : Fin d → ℝ) (K : Fin m → Fin d → ℝ) (V : Fin m → ℝ) :
    ∑ j : Fin m, (∑ k : Fin d, q k * K j k) * V j = ∑ a : Fin d, q a * ∑ j : Fin m, K j a * V j := by
  have hL : ∑ j : Fin m, (∑ k : Fin d, q k * K j k) * V j = ∑ j : Fin m, ∑ a : Fin d, q a * K j a * V j :=
    Finset.sum_congr rfl fun j _ => Finset.sum_mul _ _ _
  have hR : ∑ a : Fin d, q a * ∑ j : Fin m, K j a * V j = ∑ a : Fin d, ∑ j : Fin m, q a * K j a * V j :=
    Finset.sum_congr rfl fun a _ => by
      rw [Finset.mul_sum]
      exact Finset.sum_congr rfl fun j _ => (mul_assoc _ _ _).symm
  rw [hL, hR, Finset.sum_comm]

/-- The bracketing (q Kᵀ) V on real entries is the image of the real expression. -/
theorem left_coe {m d : ℕ} (q : Fin d → ℝ) (K : Fin m → Fin d → ℝ) (V : Fin m → ℝ) :
    ∑ j : Fin m, (∑ k : Fin d, (q k : EReal) * (K j k : EReal)) * (V j : EReal)
      = ((∑ j : Fin m, (∑ k : Fin d, q k * K j k) * V j : ℝ) : EReal) := by
  simp only [coe_sum, EReal.coe_mul]

/-- The bracketing q (Kᵀ V) on real entries is the image of the real expression. -/
theorem right_coe {m d : ℕ} (q : Fin d → ℝ) (K : Fin m → Fin d → ℝ) (V : Fin m → ℝ) :
    ∑ a : Fin d, (q a : EReal) * ∑ j : Fin m, (K j a : EReal) * (V j : EReal)
      = ((∑ a : Fin d, q a * ∑ j : Fin m, K j a * V j : ℝ) : EReal) := by
  simp only [coe_sum, EReal.coe_mul]

/-- On the extended reals, with every entry real, (q Kᵀ) V = q (Kᵀ V). -/
theorem assoc {m d : ℕ} (q : Fin d → EReal) (K : Fin m → Fin d → EReal) (V : Fin m → EReal)
    (hq : ∀ a, IsReal (q a)) (hK : ∀ j a, IsReal (K j a)) (hV : ∀ j, IsReal (V j)) :
    ∑ j : Fin m, (∑ k : Fin d, q k * K j k) * V j = ∑ a : Fin d, q a * ∑ j : Fin m, K j a * V j := by
  choose q' hq' using hq
  choose K' hK' using hK
  choose V' hV' using hV
  obtain rfl : q = fun a => (q' a : EReal) := funext hq'
  obtain rfl : K = fun j a => (K' j a : EReal) := funext fun j => funext fun a => hK' j a
  obtain rfl : V = fun j => (V' j : EReal) := funext hV'
  show ∑ j : Fin m, (∑ k : Fin d, (q' k : EReal) * (K' j k : EReal)) * (V' j : EReal)
      = ∑ a : Fin d, (q' a : EReal) * ∑ j : Fin m, (K' j a : EReal) * (V' j : EReal)
  rw [left_coe, right_coe, assoc_real]

/-- A sum over m = h + h indices is the sum over the first half plus the sum over the second half,
    the halves being named by any two maps with values r and h + r. -/
theorem sum_halves {M : Type*} [AddCommMonoid M] {h m : ℕ} (hm : m = h + h) (lo hi : Fin h → Fin m)
    (hlo : ∀ r, (lo r).val = r.val) (hhi : ∀ r, (hi r).val = h + r.val) (f : Fin m → M) :
    ∑ j : Fin m, f j = ∑ r : Fin h, f (lo r) + ∑ r : Fin h, f (hi r) := by
  subst hm
  rw [Fin.sum_univ_add]
  have h1 : ∀ r : Fin h, Fin.castAdd h r = lo r := fun r => Fin.ext (by rw [hlo]; rfl)
  have h2 : ∀ r : Fin h, Fin.natAdd h r = hi r := fun r => Fin.ext (by rw [hhi]; rfl)
  simp only [h1, h2]

/-- (q Kᵀ) V = q (Kᵀ V) with Kᵀ V accumulated from zero over the two halves of the m = h + h rows,
    every entry being real. -/
theorem assoc_halves {h m d : ℕ} (hm : m = h + h) (lo hi : Fin h → Fin m)
    (hlo : ∀ r, (lo r).val = r.val) (hhi : ∀ r, (hi r).val = h + r.val)
    (q : Fin d → EReal) (K : Fin m → Fin d → EReal) (V : Fin m → EReal)
    (hq : ∀ a, IsReal (q a)) (hK : ∀ j a, IsReal (K j a)) (hV : ∀ j, IsReal (V j)) :
    ∑ j : Fin m, (∑ k : Fin d, q k * K j k) * V j
      = ∑ a : Fin d, q a * (((0 : EReal) + ∑ r : Fin h, K (lo r) a * V (lo r))
          + ∑ r : Fin h, K (hi r) a * V (hi r)) := by
  rw [assoc q K V hq hK hV]
  refine Finset.sum_congr rfl fun a _ => ?_
  rw [zero_add, sum_halves hm lo hi hlo hhi (fun j => K j a * V j)]

end Cert.Lib.TripleProduct
-- ==== Proof.Assoc.lean ====
/-
  The reference's (Q Kᵀ) V and the kernel's Q (Kᵀ V) agree on real inputs.

  Each of the three layers Q, K, V is a finite sum of products of real entries plus a real entry, hence
  real. For fixed batch n, row i and feature v, the reference's entry is (q Kᵀ) V with q the row i of Q,
  K the 4096 × 128 matrix of the batch and V the column v; the kernel's entry is q (Kᵀ V) with the
  128 numbers Kᵀ V each accumulated from zero over the rows r and 2048 + r, r < 2048. Both are the
  triple sum ∑ j, ∑ a, q a · K j a · V j: a product of three real matrices may be bracketed either way,
  and a sum over 4096 = 2048 + 2048 rows is the sum over its two halves.
-/
import Mathlib
import proofs.«172972_j40510131536516_2_alg».proof.Proof.Spec
import proofs.«172972_j40510131536516_2_alg».proof.Proof.LibChebReal
import proofs.«172972_j40510131536516_2_alg».proof.Proof.LibTripleProduct

noncomputable section

namespace Cert.Attn

open Idealize.ShloMosaic Idealize.ShloMosaic.ValueIdx
open Cert.Lib.Cheb
open scoped BigOperators

/-- Every entry of a linear layer of real inputs is real: a finite sum of products of reals plus a real. -/
theorem lin_real (X : SX.Idx → EReal) (W : SW.Idx → EReal) (b : SB.Idx → EReal)
    (hX : ∀ i, Cert.Lib.Cheb.IsReal (X i)) (hW : ∀ i, Cert.Lib.Cheb.IsReal (W i)) (hb : ∀ i, Cert.Lib.Cheb.IsReal (b i))
    (n : Fin 4) (i : Fin 4096) (a : Fin 128) : Cert.Lib.Cheb.IsReal (lin X W b n i a) := by
  unfold lin
  exact (IsReal.sum_univ _ fun e => (hX _).mul (hW _)).add (hb _)

/-- On real inputs (Q Kᵀ) V = Q (Kᵀ V), the product Kᵀ V being accumulated from zero over the two halves
    of the 4096 rows: the three layers are real, and the two bracketings of a product of three real
    matrices agree. -/
theorem attnRef_eq_attnKer (X : SX.Idx → EReal) (Wq : SW.Idx → EReal) (bq : SB.Idx → EReal) (Wk : SW.Idx → EReal) (bk : SB.Idx → EReal)
    (Wv : SW.Idx → EReal) (bv : SB.Idx → EReal)
    (hX : ∀ i, Cert.Lib.Cheb.IsReal (X i)) (hWq : ∀ i, Cert.Lib.Cheb.IsReal (Wq i)) (hbq : ∀ i, Cert.Lib.Cheb.IsReal (bq i))
    (hWk : ∀ i, Cert.Lib.Cheb.IsReal (Wk i)) (hbk : ∀ i, Cert.Lib.Cheb.IsReal (bk i))
    (hWv : ∀ i, Cert.Lib.Cheb.IsReal (Wv i)) (hbv : ∀ i, Cert.Lib.Cheb.IsReal (bv i))
    (n : Fin 4) (i : Fin 4096) (v : Fin 128) :
    attnRef X Wq bq Wk bk Wv bv n i v = attnKer X Wq bq Wk bk Wv bv n i v := by
  unfold attnRef attnKer
  exact Cert.Lib.TripleProduct.assoc_halves (h := 2048) (m := 4096) (d := 128) rfl lo hi (fun _ => rfl) (fun _ => rfl)
    (fun k => lin X Wq bq n i k) (fun j a => lin X Wk bk n j a) (fun j => lin X Wv bv n j v)
    (fun a => lin_real X Wq bq hX hWq hbq n i a) (fun j a => lin_real X Wk bk hX hWk hbk n j a)
    (fun j => lin_real X Wv bv hX hWv hbv n j v)

end Cert.Attn

end
-- ==== Proof.LibFiniteTest.lean ====
/-
  The finiteness test `all(|x| < +∞)` of a float array, read on the extended reals.

  A precondition "every entry of x is finite" is computed as: take |x| entry by entry, compare it with the
  float +∞ stretched over x's shape, and take the conjunction of all the comparison bits. On the extended reals
  |x| is max x (−x), the float pattern 0x7F800000 is the top element, and max x (−x) < ⊤ holds exactly when x is
  neither infinity — when x is a real number. So if the conjunction is the bit 1, every entry of x is real.
  Stated for any shape of x and any list of reduced axes, over the literal shape of a single number ⟨0, ![]⟩.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value
import Mathlib.Data.EReal.Operations

noncomputable section

namespace Cert.Lib.FiniteTest

open Idealize.ShloMosaic Idealize.ShloMosaic.ValueIdx

/-- The shape of a single number has one index. -/
instance : Subsingleton (⟨0, ![]⟩ : Shape).Idx := ⟨fun _ _ => funext fun d => d.elim0⟩

/-- The float pattern of +∞ denotes the top of the extended reals. -/
theorem ofBits_inf : Ideal.ofBits .f32 0x7F800000#32 = (⊤ : EReal) := by simp [Ideal.ofBits, Ideal.ieee]

/-- An extended real whose absolute value, max x (−x), is below +∞ is a real number. -/
theorem exists_real_of_abs_lt_top {x : EReal} (h : max x (-x) < ⊤) : ∃ r : ℝ, x = (r : EReal) := by
  induction x using EReal.rec with
  | bot => simp at h
  | top => simp at h
  | coe r => exact ⟨r, rfl⟩

/-- One entry's test: |x i| < +∞ says that x i is a real number. -/
theorem real_of_abs_lt_inf {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = (r : EReal) := by
  rw [cmpf_apply, Ideal.cmpf_def, broadcastInDim_apply _ hb _ i ix0 (fun a => a.elim0), constant_apply, ofBits_inf] at h
  have h' : max (x i) (-(x i)) < ⊤ := by
    by_contra hn
    have : Ideal.cmp .olt (Host.absf x i) ⊤ = 0#1 := by
      show BitVec.ofBool (decide (max (x i) (-(x i)) < ⊤)) = 0#1
      rw [decide_eq_false hn]; rfl
    rw [this] at h
    exact absurd h (by decide)
  exact exists_real_of_abs_lt_top h'

/-- The whole test: the conjunction over all entries is 1, so every entry is real. -/
theorem allReal_of_all {s : Shape} (x : FVec Ideal s .f32)
    (hb : (⟨0, ![]⟩ : Shape).BroadcastsInDim s (![] : Fin 0 → Fin s.rank))
    {axes : List (Fin s.rank)} (hr : s.ReducesTo axes ⟨0, ![]⟩) (hu : 0 < (⟨0, ![]⟩ : Shape).numel)
    (h : Host.reduce IntOp.andi (cmpf .olt (Host.absf x) (broadcastInDim s ![] hb (constant (F := Ideal) ⟨0, ![]⟩ .f32 0x7F800000#32)))
      (constantI ⟨0, ![]⟩ 1 1#1) hr hu ix0 = 1#1) : ∀ i, ∃ r : ℝ, x i = (r : EReal) :=
  fun i => real_of_abs_lt_inf x hb i (Host.reduce_andi_all _ _ hr hu ix0 h i)

end Cert.Lib.FiniteTest

end
-- ==== Proof.Finite.lean ====
/-
  From the printed precondition to real entries.

  The precondition is the conjunction of seven tests, one per input array, each of the form
  all(|x| < +∞): the absolute value of every entry is compared with the float +∞ and the comparison
  bits are joined by "and". If the whole conjunction is the bit 1 then each of the seven tests is the
  bit 1, and a test that is 1 says that every entry of its array is neither infinity, that is, a real
  number.
-/
import proofs.«172972_j40510131536516_2_alg».proof.Proof.Gen.Pre_finite_inputs
import proofs.«172972_j40510131536516_2_alg».proof.Proof.LibFiniteTest
import proofs.«172972_j40510131536516_2_alg».proof.Proof.LibChebAlgebra

noncomputable section

namespace Cert.Attn

open Idealize.ShloMosaic Idealize.ShloMosaic.ValueIdx

/-- If the precondition's word is 1, every entry of each of the seven inputs is a real number: the
    word is the conjunction of the seven tests all(|x| < +∞), so each test is 1, and each test that is
    1 makes every entry of its array real. -/
theorem real_of_pre [Cert.Pre_finite_inputs.Facts]
    (x0 : FVec Ideal Cert.Pre_finite_inputs.S4x4096x1024 .f32) (x1 : FVec Ideal Cert.Pre_finite_inputs.S128x1024 .f32) (x2 : FVec Ideal Cert.Pre_finite_inputs.S128 .f32)
    (x3 : FVec Ideal Cert.Pre_finite_inputs.S128x1024 .f32) (x4 : FVec Ideal Cert.Pre_finite_inputs.S128 .f32)
    (x5 : FVec Ideal Cert.Pre_finite_inputs.S128x1024 .f32) (x6 : FVec Ideal Cert.Pre_finite_inputs.S128 .f32)
    (h : Cert.Pre_finite_inputs.fn (F := Ideal) x0 x1 x2 x3 x4 x5 x6 = fun _ => 1#1) :
    (∀ i, Cert.Lib.Cheb.IsReal (x0 i)) ∧ (∀ i, Cert.Lib.Cheb.IsReal (x1 i)) ∧ (∀ i, Cert.Lib.Cheb.IsReal (x2 i)) ∧ (∀ i, Cert.Lib.Cheb.IsReal (x3 i))
      ∧ (∀ i, Cert.Lib.Cheb.IsReal (x4 i)) ∧ (∀ i, Cert.Lib.Cheb.IsReal (x5 i)) ∧ (∀ i, Cert.Lib.Cheb.IsReal (x6 i)) := by
  have h0 := congrFun h ValueIdx.ix0
  dsimp only [Cert.Pre_finite_inputs.fn, Cert.Pre_finite_inputs.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨Cert.Lib.FiniteTest.allReal_of_all x0 _ _ _ h0, Cert.Lib.FiniteTest.allReal_of_all x1 _ _ _ h1,
    Cert.Lib.FiniteTest.allReal_of_all x2 _ _ _ h2, Cert.Lib.FiniteTest.allReal_of_all x3 _ _ _ h3,
    Cert.Lib.FiniteTest.allReal_of_all x4 _ _ _ h4, Cert.Lib.FiniteTest.allReal_of_all x5 _ _ _ h5,
    Cert.Lib.FiniteTest.allReal_of_all x6 _ _ _ h6⟩

end Cert.Attn

end
-- ==== Proof.RefSide.lean ====
/-
  The reference's result read at an index: entry (n, i, v) of (Q Kᵀ) V, with Q, K, V the three linear
  layers of the input.

  Each linear layer is a contraction over the 1024 input features plus a bias broadcast along the batch
  and the row axes, so its entry (n, i, a) is (∑ e, X[n, i, e] · W[a, e]) + b[a].  The score matrix
  Q Kᵀ contracts the 128 features, entry (n, i, j) being ∑ k, Q[n, i, k] · K[n, j, k], and the result
  contracts the 4096 rows, entry (n, i, v) being ∑ j, (Q Kᵀ)[n, i, j] · V[n, j, v].
-/
import proofs.«172972_j40510131536516_2_alg».proof.Proof.Gen.ReferenceIdeal.Read
import proofs.«172972_j40510131536516_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The index maps at an index given by its coordinates -/

/-- A linear layer's contraction reads the input at (n, i, e). -/
theorem lidx_lin (n : Fin 4) (i : Fin 4096) (a : Fin 128) (e : Fin 1024) :
    lidx_main_v0 (ix3 n i a) e = ix3 n i e :=
  funext fun d => Fin.ext (by match d with | ⟨0, _⟩ => rfl | ⟨1, _⟩ => rfl | ⟨2, _⟩ => rfl)

/-- A linear layer's contraction reads the weight at (a, e). -/
theorem ridx_lin (n : Fin 4) (i : Fin 4096) (a : Fin 128) (e : Fin 1024) :
    ridx_main_v0 (ix3 n i a) e = ix2 a e :=
  funext fun d => Fin.ext (by match d with | ⟨0, _⟩ => rfl | ⟨1, _⟩ => rfl)

/-- The two broadcasts read the bias at a. -/
theorem bidx_lin (n : Fin 4) (i : Fin 4096) (a : Fin 128) :
    idx_main_v1 (idx_main_v2 (ix3 n i a)) = ix1 a :=
  funext fun d => Fin.ext (by match d with | ⟨0, _⟩ => rfl)

/-- The scores' contraction reads Q at (n, i, k). -/
theorem lidx_score (n : Fin 4) (i j : Fin 4096) (k : Fin 128) :
    lidx_main_v12 (ix3 n i j) k = ix3 n i k :=
  funext fun d => Fin.ext (by match d with | ⟨0, _⟩ => rfl | ⟨1, _⟩ => rfl | ⟨2, _⟩ => rfl)

/-- The scores' contraction reads K at (n, j, k). -/
theorem ridx_score (n : Fin 4) (i j : Fin 4096) (k : Fin 128) :
    ridx_main_v12 (ix3 n i j) k = ix3 n j k :=
  funext fun d => Fin.ext (by match d with | ⟨0, _⟩ => rfl | ⟨1, _⟩ => rfl | ⟨2, _⟩ => rfl)

/-- The result's contraction reads the scores at (n, i, j). -/
theorem lidx_out (n : Fin 4) (i : Fin 4096) (v : Fin 128) (j : Fin 4096) :
    lidx_main_v13 (ix3 n i v) j = ix3 n i j :=
  funext fun d => Fin.ext (by match d with | ⟨0, _⟩ => rfl | ⟨1, _⟩ => rfl | ⟨2, _⟩ => rfl)

/-- The result's contraction reads V at (n, j, v). -/
theorem ridx_out (n : Fin 4) (i : Fin 4096) (v : Fin 128) (j : Fin 4096) :
    ridx_main_v13 (ix3 n i v) j = ix3 n j v :=
  funext fun d => Fin.ext (by match d with | ⟨0, _⟩ => rfl | ⟨1, _⟩ => rfl | ⟨2, _⟩ => rfl)

/-! ## The three linear layers -/

/-- Q[n, i, a] = (∑ e, X[n, i, e] · Wq[a, e]) + bq[a]. -/
theorem q_read (x0 : (⟨S4x4096x1024, .f32⟩ : BufTy).Contents (Elt Ideal)) (x1 : (⟨S128x1024, .f32⟩ : BufTy).Contents (Elt Ideal))
    (x2 : (⟨S128, .f32⟩ : BufTy).Contents (Elt Ideal)) (n : Fin 4) (i : Fin 4096) (a : Fin 128) :
    val_main_v3 (F := Ideal) x0 x1 x2 (ix3 n i a) = Cert.Attn.lin x0 x1 x2 n i a := by
  rw [val_main_v3_apply, val_main_v0_apply, val_main_v2_apply, val_main_v1_apply]
  unfold Cert.Attn.lin
  show (∑ e : Fin 1024, x0 (lidx_main_v0 (ix3 n i a) e) * x1 (ridx_main_v0 (ix3 n i a) e))
      + x2 (idx_main_v1 (idx_main_v2 (ix3 n i a))) = _
  rw [bidx_lin]
  congr 1
  exact Finset.sum_congr rfl fun e _ => by rw [lidx_lin, ridx_lin]

/-- K[n, i, a] = (∑ e, X[n, i, e] · Wk[a, e]) + bk[a]. -/
theorem k_read (x0 : (⟨S4x4096x1024, .f32⟩ : BufTy).Contents (Elt Ideal)) (x3 : (⟨S128x1024, .f32⟩ : BufTy).Contents (Elt Ideal))
    (x4 : (⟨S128, .f32⟩ : BufTy).Contents (Elt Ideal)) (n : Fin 4) (i : Fin 4096) (a : Fin 128) :
    val_main_v7 (F := Ideal) x0 x3 x4 (ix3 n i a) = Cert.Attn.lin x0 x3 x4 n i a := by
  rw [val_main_v7_apply, val_main_v4_apply, val_main_v6_apply, val_main_v5_apply]
  unfold Cert.Attn.lin
  show (∑ e : Fin 1024, x0 (lidx_main_v0 (ix3 n i a) e) * x3 (ridx_main_v0 (ix3 n i a) e))
      + x4 (idx_main_v1 (idx_main_v2 (ix3 n i a))) = _
  rw [bidx_lin]
  congr 1
  exact Finset.sum_congr rfl fun e _ => by rw [lidx_lin, ridx_lin]

/-- V[n, i, a] = (∑ e, X[n, i, e] · Wv[a, e]) + bv[a]. -/
theorem v_read (x0 : (⟨S4x4096x1024, .f32⟩ : BufTy).Contents (Elt Ideal)) (x5 : (⟨S128x1024, .f32⟩ : BufTy).Contents (Elt Ideal))
    (x6 : (⟨S128, .f32⟩ : BufTy).Contents (Elt Ideal)) (n : Fin 4) (i : Fin 4096) (a : Fin 128) :
    val_main_v11 (F := Ideal) x0 x5 x6 (ix3 n i a) = Cert.Attn.lin x0 x5 x6 n i a := by
  rw [val_main_v11_apply, val_main_v8_apply, val_main_v10_apply, val_main_v9_apply]
  unfold Cert.Attn.lin
  show (∑ e : Fin 1024, x0 (lidx_main_v0 (ix3 n i a) e) * x5 (ridx_main_v0 (ix3 n i a) e))
      + x6 (idx_main_v1 (idx_main_v2 (ix3 n i a))) = _
  rw [bidx_lin]
  congr 1
  exact Finset.sum_congr rfl fun e _ => by rw [lidx_lin, ridx_lin]

/-! ## The scores and the result -/

/-- (Q Kᵀ)[n, i, j] = ∑ k, Q[n, i, k] · K[n, j, k]. -/
theorem score_read (x0 : (⟨S4x4096x1024, .f32⟩ : BufTy).Contents (Elt Ideal)) (x1 : (⟨S128x1024, .f32⟩ : BufTy).Contents (Elt Ideal))
    (x2 : (⟨S128, .f32⟩ : BufTy).Contents (Elt Ideal)) (x3 : (⟨S128x1024, .f32⟩ : BufTy).Contents (Elt Ideal))
    (x4 : (⟨S128, .f32⟩ : BufTy).Contents (Elt Ideal)) (n : Fin 4) (i j : Fin 4096) :
    val_main_v12 (F := Ideal) x0 x1 x2 x3 x4 (ix3 n i j)
      = ∑ k : Fin 128, Cert.Attn.lin x0 x1 x2 n i k * Cert.Attn.lin x0 x3 x4 n j k := by
  rw [val_main_v12_apply]
  exact Finset.sum_congr rfl fun k _ => by rw [lidx_score, ridx_score, q_read, k_read]

/-- The reference's result is the specification's (Q Kᵀ) V, entry by entry. -/
theorem ref_eq (x0 : (⟨Cert.ReferenceIdeal.S4x4096x1024, .f32⟩ : BufTy).Contents (Elt Ideal)) (x1 : (⟨Cert.ReferenceIdeal.S128x1024, .f32⟩ : BufTy).Contents (Elt Ideal))
    (x2 : (⟨Cert.ReferenceIdeal.S128, .f32⟩ : BufTy).Contents (Elt Ideal)) (x3 : (⟨Cert.ReferenceIdeal.S128x1024, .f32⟩ : BufTy).Contents (Elt Ideal))
    (x4 : (⟨Cert.ReferenceIdeal.S128, .f32⟩ : BufTy).Contents (Elt Ideal)) (x5 : (⟨Cert.ReferenceIdeal.S128x1024, .f32⟩ : BufTy).Contents (Elt Ideal))
    (x6 : (⟨Cert.ReferenceIdeal.S128, .f32⟩ : BufTy).Contents (Elt Ideal)) :
    Cert.ReferenceIdeal.Read.val_main_v13 (F := Ideal) x0 x1 x2 x3 x4 x5 x6
      = fun j => Cert.Attn.attnRef x0 x1 x2 x3 x4 x5 x6 (j 0) (j 1) (j 2) := by
  funext j
  obtain ⟨n, i, v, rfl⟩ : ∃ (n : Fin 4) (i : Fin 4096) (v : Fin 128), j = ix3 n i v := ⟨j 0, j 1, j 2, eq_ix3 j⟩
  rw [val_main_v13_apply]
  show _ = Cert.Attn.attnRef x0 x1 x2 x3 x4 x5 x6 n i v
  unfold Cert.Attn.attnRef
  exact Finset.sum_congr rfl fun r _ => by rw [lidx_out, ridx_out, score_read, v_read]

end Cert.ReferenceIdeal.RefValue

end
-- ==== Proof.Algebraic.lean ====
/-
  The kernel's result at the ideal values, and its agreement with the reference.

  Every index (n, i, v) of the output array lies in the block of the odd point 2 n + 1, the only point of
  batch n that writes its block back; what that point leaves in the output's buffer is Q (Kᵀ V) of the
  batch, with Kᵀ V accumulated from zero over the two halves of the rows (attnKer).  So after the run the
  output array is attnKer of the argument arrays, entry by entry.  The reference's result is (Q Kᵀ) V
  (attnRef).  Under the precondition every entry of the seven arguments is a real number, and on real
  numbers the two are one triple sum.
-/
import proofs.«172972_j40510131536516_2_alg».proof.Defs
import proofs.«172972_j40510131536516_2_alg».proof.Proof.FrameI.Frame
import proofs.«172972_j40510131536516_2_alg».proof.Proof.KerOut
import proofs.«172972_j40510131536516_2_alg».proof.Proof.KerCover
import proofs.«172972_j40510131536516_2_alg».proof.Proof.Assoc
import proofs.«172972_j40510131536516_2_alg».proof.Proof.Finite
import proofs.«172972_j40510131536516_2_alg».proof.Proof.RefSide
import proofs.«172972_j40510131536516_2_alg».proof.Proof.Gen.ReferenceIdeal.Run
import proofs.«172972_j40510131536516_2_alg».proof.Proof.Gen.KernelIdeal
import proofs.«172972_j40510131536516_2_alg».proof.Proof.Gen.ReferenceIdeal
import proofs.«172972_j40510131536516_2_alg».proof.Proof.Gen.Pre_finite_inputs

set_option maxRecDepth 16384

noncomputable section

namespace Cert.KernelIdeal.KerValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The kernel's result array as one function of the argument arrays. -/
def G (c : Dev nD) : S4x4096x128.Idx → EReal := fun j =>
  Cert.Attn.attnKer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (j 0) (j 1) (j 2)

/-- What a point that writes the output's block back leaves there is that block of G. -/
theorem flushed_eq (c : Dev nD) (t : Fin cfg0.N) (hf : (cfg0.win 3).flush t = true) :
    (Hand.dats m 0 c).flushed 3 t = ((cfg0.win 3).blk t).view.read (Elt Ideal) (G m c) := by
  have ho : t.val % 2 = 1 := (flush0_3 t).mp hf
  show (cfg0.win 3).cut (grid0.coords t) ((Hand.dats m 0 c).after 3 t) = _
  rw [Hand.after0_3]
  funext j
  obtain ⟨z, i, v, rfl⟩ : ∃ (z : Fin 1) (i : Fin 4096) (v : Fin 128), j = ix3 z i v := ⟨j 0, j 1, j 2, eq_ix3 j⟩
  obtain rfl : z = 0 := Subsingleton.elim _ _
  show Hand.outB m c t (ix3 0 i v) = ((cfg0.win 3).blk t).view.read (Elt Ideal) (G m c) (ix3 0 i v)
  rw [outB_apply m c t ho i v, out_block_read]
  rfl

/-- After the run the output array is G. -/
theorem final (c : Dev nD) : (Hand.dats m 0 c).arrAt 3 cfg0.N = G m c :=
  (Hand.dats m 0 c).arrAt_eq_of_cover 3 (G m c) (fun t hf => flushed_eq m c t hf) (out_cover c)

/-- The kernel's run: it ends with its result array at G and its arguments unchanged. -/
theorem ker_run : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 3).trans (final m c),
      ((h c).1 0).trans (((Hand.dats m 0 c).arrAt_in 0 rfl _).trans ((Hand.A_eq m c 0).trans (Hand.V_main_arg0 m c))),
      ((h c).2 main_arg1 (Pipeline.mem_restRefs_of main_arg1 (by decide) (by decide))).trans (Hand.V_main_arg1 m c),
      ((h c).2 main_arg2 (Pipeline.mem_restRefs_of main_arg2 (by decide) (by decide))).trans (Hand.V_main_arg2 m c),
      ((h c).2 main_arg3 (Pipeline.mem_restRefs_of main_arg3 (by decide) (by decide))).trans (Hand.V_main_arg3 m c),
      ((h c).2 main_arg4 (Pipeline.mem_restRefs_of main_arg4 (by decide) (by decide))).trans (Hand.V_main_arg4 m c),
      ((h c).2 main_arg5 (Pipeline.mem_restRefs_of main_arg5 (by decide) (by decide))).trans (Hand.V_main_arg5 m c),
      ((h c).2 main_arg6 (Pipeline.mem_restRefs_of main_arg6 (by decide) (by decide))).trans (Hand.V_main_arg6 m c)⟩)
    (Hand.run_main (F := Ideal) m ρ)

end Cert.KernelIdeal.KerValue

namespace Cert.Proof.Claims

open Idealize.ShloMosaic Idealize.ShloMosaic.TcCoe Idealize.SL.Sem

/-- At the ideal values the kernel ends with Q (Kᵀ V) and the reference with (Q Kᵀ) V of arguments that agree and
    whose entries are real numbers: one array. -/
theorem algebraic : Cert.algebraic_KernelIdeal_ReferenceIdeal := by
  intro m ρ m' ρ' hpre hagree
  refine ⟨fun c => Cert.KernelIdeal.KerValue.G m c, Cert.KernelIdeal.KerValue.ker_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.Attn.real_of_pre _ _ _ _ _ _ _ (hpre c)
  rw [Cert.ReferenceIdeal.Read.val_main_v13_eq, Cert.ReferenceIdeal.RefValue.ref_eq,
    (hagree c).1, (hagree c).2.1, (hagree c).2.2.1, (hagree c).2.2.2.1, (hagree c).2.2.2.2.1, (hagree c).2.2.2.2.2.1, (hagree c).2.2.2.2.2.2]
  funext j
  exact Cert.Attn.attnRef_eq_attnKer _ _ _ _ _ _ _ h0 h1 h2 h3 h4 h5 h6 (j 0) (j 1) (j 2)

end Cert.Proof.Claims

end
-- ==== Proof.lean ====
/-
  The certificate's five claims.

  The kernel computes unnormalised attention as Q (Kᵀ V): over a 4 × 2 grid (batch, half of the 4096 rows) it
  projects each block of 2048 rows to Q | K | V with one 1024 × 384 product, accumulates the 128 × 128 matrix
  Kᵀ V of the batch over the two halves, keeps Q of the batch in a scratch, and at the second half multiplies the
  two.  The reference computes (Q Kᵀ) V.

  Frames: the kernel program (at the word-level and at the ideal values) runs to its end without a fault and
  leaves its seven arguments unchanged — the frame proved for each program; the reference's frame is its
  run with the result dropped.  The ideal pass rewrote nothing, so the kernel's idealization is its own text read
  at the ideal values.  At the ideal values the two programs' results agree on arguments whose entries are real
  numbers: both are the triple sum ∑ j ∑ a Q[i,a] K[j,a] V[j,v], by distributivity and exchanging sums.
-/
import proofs.«172972_j40510131536516_2_alg».proof.Defs
import proofs.«172972_j40510131536516_2_alg».proof.Proof.Gen.Kernel
import proofs.«172972_j40510131536516_2_alg».proof.Proof.Gen.KernelIdeal
import proofs.«172972_j40510131536516_2_alg».proof.Proof.Gen.ReferenceIdeal
import proofs.«172972_j40510131536516_2_alg».proof.Proof.Gen.Pre_finite_inputs
import proofs.«172972_j40510131536516_2_alg».proof.Proof.FrameB.Frame
import proofs.«172972_j40510131536516_2_alg».proof.Proof.FrameI.Frame
import proofs.«172972_j40510131536516_2_alg».proof.Proof.Algebraic
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Hand.frame m ρ

/-- The same program read at the ideal values runs and leaves its arguments unchanged. -/
theorem frame_kernelIdeal : Cert.frame_KernelIdeal := fun m ρ _ => Cert.KernelIdeal.Hand.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Proof.Claims.algebraic⟩

end Cert.Proof

end
